-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1200000 : Shape := ⟨1, ![1200000]⟩
abbrev S64x256 : Shape := ⟨2, ![64, 256]⟩
abbrev S64 : Shape := ⟨1, ![64]⟩
abbrev S1x64 : Shape := ⟨2, ![1, 64]⟩
abbrev S1 : Shape := ⟨1, ![1]⟩
abbrev S8192 : Shape := ⟨1, ![8192]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1200000 : S_.BroadcastsInDim S1200000 (![] : Fin 0 → Fin S1200000.rank)
  reducesTo_S1200000_S_d0 : S1200000.ReducesTo [0] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S64x256 .f32) (main_arg5 : FVec F S64 .f32) (main_arg6 : FVec F S1x64 .f32) (main_arg7 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x256 .f32 := Host.absf main_arg4
  let main_cst_6 : FVec F S_ .f32 := constant S_ .f32 0x7F800000#32
  let main_v20 : FVec F S64x256 .f32 := broadcastInDim S64x256 ![] bcast_S_S64x256 main_cst_6
  let main_v21 : IVec S64x256 1 := cmpf .olt main_v19 main_v20
  let main_c_7 : IVec S_ 1 := constantI S_ 1 1#1
  let main_v22 : IVec S_ 1 := (fun x v => Host.reduce IntOp.andi x v reducesTo_S64x256_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S1x64 .f32 := Host.absf main_arg6
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  fn_part2 (F := F) main_arg7 main_v33

def fn {F : FTy → Type} [FloatOps F] (main_arg0 : FVec F S100000x256 .f32) (main_arg1 : FVec F S1200000 .f32) (main_arg2 : FVec F S64x256 .f32) (main_arg3 : FVec F S64 .f32) (main_arg4 : FVec F S64x256 .f32) (main_arg5 : FVec F S64 .f32) (main_arg6 : FVec F S1x64 .f32) (main_arg7 : FVec F S1 .f32) (main_arg8 : IVec S1200000 32) (main_arg9 : IVec S1200000 32) (main_arg10 : IVec S8192 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1200000 .f32 := Host.absf main_arg1
  let main_cst_0 : FVec F S_ .f32 := constant S_ .f32 0x7F800000#32
  let main_v5 : FVec F S1200000 .f32 := broadcastInDim S1200000 ![] bcast_S_S1200000 main_cst_0
  let main_v6 : IVec S1200000 1 := cmpf .olt main_v4 main_v5
  let main_c_1 : IVec S_ 1 := constantI S_ 1 1#1
  let main_v7 : IVec S_ 1 := (fun x v => Host.reduce IntOp.andi x v reducesTo_S1200000_S_d0 h_S_) main_v6 main_c_1
  let main_v8 : IVec S_ 1 := andi main_v3 main_v7
  let main_v9 : FVec F S64x256 .f32 := Host.absf main_arg2
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S100000x256 : Shape := ⟨2, ![100000, 256]⟩
abbrev S1200000 : Shape := ⟨1, ![1200000]⟩
abbrev S64x256 : Shape := ⟨2, ![64, 256]⟩
abbrev S64 : Shape := ⟨1, ![64]⟩
abbrev S1x64 : Shape := ⟨2, ![1, 64]⟩
abbrev S1 : Shape := ⟨1, ![1]⟩
abbrev S8192 : Shape := ⟨1, ![8192]⟩
abbrev S128x256 : Shape := ⟨2, ![128, 256]⟩
abbrev S128 : Shape := ⟨1, ![128]⟩
abbrev S1x128 : Shape := ⟨2, ![1, 128]⟩
abbrev S256x128 : Shape := ⟨2, ![256, 128]⟩
abbrev S100000x128 : Shape := ⟨2, ![100000, 128]⟩
abbrev S100000x64 : Shape := ⟨2, ![100000, 64]⟩
abbrev S1200000x1 : Shape := ⟨2, ![1200000, 1]⟩
abbrev S_ : Shape := ⟨0, ![]⟩
abbrev S1200000x64 : Shape := ⟨2, ![1200000, 64]⟩
abbrev S8192x1 : Shape := ⟨2, ![8192, 1]⟩
abbrev S8192x64 : Shape := ⟨2, ![8192, 64]⟩
abbrev S64x1 : Shape := ⟨2, ![64, 1]⟩
abbrev S1x1 : Shape := ⟨2, ![1, 1]⟩
abbrev S5000x256 : Shape := ⟨2, ![5000, 256]⟩
abbrev S5000x128 : Shape := ⟨2, ![5000, 128]⟩
abbrev S5000x64 : Shape := ⟨2, ![5000, 64]⟩

abbrev nBuf : Space → Nat
  | .hbm => 47
  | .vmem => 16
  | .smem => 0
  | _ => 0

abbrev bufTy : (tb : Table) → Fin (tcTables nBuf tb) → BufTy
  | .hbm, ⟨0, _⟩ => ⟨S100000x256, .f32⟩
  | .hbm, ⟨1, _⟩ => ⟨S1200000, .f32⟩
  | .hbm, ⟨2, _⟩ => ⟨S64x256, .f32⟩
  | .hbm, ⟨3, _⟩ => ⟨S64, .f32⟩
  | .hbm, ⟨4, _⟩ => ⟨S64x256, .f32⟩
  | .hbm, ⟨5, _⟩ => ⟨S64, .f32⟩
  | .hbm, ⟨6, _⟩ => ⟨S1x64, .f32⟩
  | .hbm, ⟨7, _⟩ => ⟨S1, .f32⟩
  | .hbm, ⟨8, _⟩ => ⟨S1200000, .i32⟩
  | .hbm, ⟨9, _⟩ => ⟨S1200000, .i32⟩
  | .hbm, ⟨10, _⟩ => ⟨S8192, .i32⟩
  | .hbm, ⟨11, _⟩ => ⟨S128x256, .f32⟩
  | .hbm, ⟨12, _⟩ => ⟨S128, .f32⟩
  | .hbm, ⟨13, _⟩ => ⟨S1x128, .f32⟩
  | .hbm, ⟨14, _⟩ => ⟨S256x128, .f32⟩
  | .hbm, ⟨15, _⟩ => ⟨S100000x128, .f32⟩
  | .hbm, ⟨16, _⟩ => ⟨S100000x64, .f32⟩
  | .hbm, ⟨17, _⟩ => ⟨S100000x64, .f32⟩
  | .hbm, ⟨18, _⟩ => ⟨S1200000x1, .f32⟩
  | .hbm, ⟨19, _⟩ => ⟨S_, .i32⟩
  | .hbm, ⟨20, _⟩ => ⟨S1200000, .i32⟩
  | .hbm, ⟨21, _⟩ => ⟨S1200000, .i1⟩
  | .hbm, ⟨22, _⟩ => ⟨S_, .i32⟩
  | .hbm, ⟨23, _⟩ => ⟨S1200000, .i32⟩
  | .hbm, ⟨24, _⟩ => ⟨S1200000, .i32⟩
  | .hbm, ⟨25, _⟩ => ⟨S1200000, .i32⟩
  | .hbm, ⟨26, _⟩ => ⟨S1200000x1, .i32⟩
  | .hbm, ⟨27, _⟩ => ⟨S1200000x64, .f32⟩
  | .hbm, ⟨28, _⟩ => ⟨S1200000x64, .f32⟩
  | .hbm, ⟨29, _⟩ => ⟨S1200000x64, .f32⟩
  | .hbm, ⟨30, _⟩ => ⟨S_, .f32⟩
  | .hbm, ⟨31, _⟩ => ⟨S100000x64, .f32⟩
  | .hbm, ⟨32, _⟩ => ⟨S1200000x1, .i32⟩
  | .hbm, ⟨33, _⟩ => ⟨S100000x64, .f32⟩
  | .hbm, ⟨34, _⟩ => ⟨S100000x64, .f32⟩
  | .hbm, ⟨35, _⟩ => ⟨S_, .i32⟩
  | .hbm, ⟨36, _⟩ => ⟨S8192, .i32⟩
  | .hbm, ⟨37, _⟩ => ⟨S8192, .i1⟩
  | .hbm, ⟨38, _⟩ => ⟨S_, .i32⟩
  | .hbm, ⟨39, _⟩ => ⟨S8192, .i32⟩
  | .hbm, ⟨40, _⟩ => ⟨S8192, .i32⟩
  | .hbm, ⟨41, _⟩ => ⟨S8192, .i32⟩
  | .hbm, ⟨42, _⟩ => ⟨S8192x1, .i32⟩
  | .hbm, ⟨43, _⟩ => ⟨S8192x64, .f32⟩
  | .hbm, ⟨44, _⟩ => ⟨S64x1, .f32⟩
  | .hbm, ⟨45, _⟩ => ⟨S1x1, .f32⟩
  | .hbm, ⟨46, _⟩ => ⟨S8192, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S8192x64, .f32⟩
  | .local _ .vmem, ⟨13, _⟩ => ⟨S64x1, .f32⟩
  | .local _ .vmem, ⟨14, _⟩ => ⟨S1x1, .f32⟩
  | .local _ .vmem, ⟨15, _⟩ => ⟨S8192, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_c : Ref sig .tc := ⟨.hbm, 19, rfl⟩
abbrev main_call0_v8 : Ref sig .tc := ⟨.hbm, 20, rfl⟩
abbrev main_call0_v9 : Ref sig .tc := ⟨.hbm, 21, rfl⟩
abbrev main_call0_c_0 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_v16 : Ref sig .tc := ⟨.hbm, 29, rfl⟩
abbrev main_call0_cst : Ref sig .tc := ⟨.hbm, 30, rfl⟩
abbrev main_call0_v17 : Ref sig .tc := ⟨.hbm, 31, rfl⟩
abbrev main_call0_v18 : Ref sig .tc := ⟨.hbm, 32, rfl⟩
abbrev main_call0_v19 : Ref sig .tc := ⟨.hbm, 33, rfl⟩
abbrev main_call0_v20 : Ref sig .tc := ⟨.hbm, 34, rfl⟩
abbrev main_call0_c_1 : Ref sig .tc := ⟨.hbm, 35, rfl⟩
abbrev main_call0_v21 : Ref sig .tc := ⟨.hbm, 36, rfl⟩
abbrev main_call0_v22 : Ref sig .tc := ⟨.hbm, 37, rfl⟩
abbrev main_call0_c_2 : Ref sig .tc := ⟨.hbm, 38, rfl⟩
abbrev main_call0_v23 : Ref sig .tc := ⟨.hbm, 39, rfl⟩
abbrev main_call0_v24 : Ref sig .tc := ⟨.hbm, 40, rfl⟩
abbrev main_call0_v25 : Ref sig .tc := ⟨.hbm, 41, rfl⟩
abbrev main_call0_v26 : Ref sig .tc := ⟨.hbm, 42, rfl⟩
abbrev main_call0_v27 : Ref sig .tc := ⟨.hbm, 43, rfl⟩
abbrev main_call0_v28 : Ref sig .tc := ⟨.hbm, 44, rfl⟩
abbrev main_call0_v29 : Ref sig .tc := ⟨.hbm, 45, rfl⟩
abbrev main_v0 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem1_0 : DmaSem sig := 13
abbrev cc2_sem2_0 : DmaSem sig := 14
abbrev cc2_sem3_0 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

abbrev stage2_0 : Fin 1 → Memref sig .tc .vmem S8192x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S64x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S8192 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  concatenates_S64x256_S64x256_S128x256_d0 : Shape.Concatenates [S64x256, S64x256] S128x256 0
  concatenates_S64_S64_S128_d0 : Shape.Concatenates [S64, S64] S128 0
  shapeCasts_S128_S1x128 : S128.ShapeCasts S1x128
  transposes_S128x256_S256x128_1_0 : S128x256.Transposes [1, 0] S256x128
  slices_S100000x128_S100000x64_0_0 : S100000x128.Slices ![0, 0] S100000x64
  slices_S100000x128_S100000x64_0_64 : S100000x128.Slices ![0, 64] S100000x64
  bcast_S1200000_S1200000x1_0 : S1200000.BroadcastsInDim S1200000x1 (![0] : Fin 1 → Fin S1200000x1.rank)
  bcast_S_S1200000 : S_.BroadcastsInDim S1200000 (![] : Fin 0 → Fin S1200000.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  bcast_S_S8192 : S_.BroadcastsInDim S8192 (![] : Fin 0 → Fin S8192.rank)
  bcast_S8192_S8192x1_0 : S8192.BroadcastsInDim S8192x1 (![0] : Fin 1 → Fin S8192x1.rank)
  transposes_S1x64_S64x1_1_0 : S1x64.Transposes [1, 0] S64x1
  shapeCasts_S1_S1x1 : S1.ShapeCasts S1x1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8192x1 : S1x1.Broadcasts S8192x1
  shapeCasts_S8192x1_S8192 : S8192x1.ShapeCasts S8192
  inb_S8192_S8192_0 : ∀ a, (![0] : Fin 1 → Nat) a + S8192.size a ≤ S8192.size a
  h_S8192 : 0 < S8192.numel
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  gather_S100000x64_S8192x1_S8192x64_1_0_n_n_0_1_164_wf : GatherDims.WF S100000x64 S8192x1 S8192x64 [1] [0] [] [0] [] 1 ![1, 64]
  dot_S5000x256_S256x128_S5000x128_1_0_0_1_n_n_wf : DotDims.WF S5000x256 S256x128 S5000x128 [1] [0] [0] [1] [] []
  dot_S8192x64_S64x1_S8192x1_1_0_0_1_n_n_wf : DotDims.WF S8192x64 S64x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S8192x64.size a ≤ S8192x64.size a
  hwx2_0 : ∀ i : grid2.Coords, EltTy.bits .f32 = 32 ∨ (Rect.block (s := S8192x64) S8192x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x1.size a ≤ S64x1.size a
  hwx2_1 : ∀ i : grid2.Coords, EltTy.bits .f32 = 32 ∨ (Rect.block (s := S64x1) S64x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S8192.size a ≤ S8192.size a
  hwx2_3 : ∀ i : grid2.Coords, EltTy.bits .f32 = 32 ∨ (Rect.block (s := S8192) S8192.size (cc2_transform_3 i) (hinb2_3 i)).WholeWords (EltTy.packing .f32)

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def gather_S100000x64_S8192x1_S8192x64_1_0_n_n_0_1_164 : GatherDims S100000x64 S8192x1 S8192x64 where
  offsetDims := [1]
  collapsedSliceDims := [0]
  operandBatchingDims := []
  startIndicesBatchingDims := []
  startIndexMap := [0]
  indexVectorDim := 1
  sliceSizes := ![1, 64]
  wf := gather_S100000x64_S8192x1_S8192x64_1_0_n_n_0_1_164_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v4) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v5) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v19) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v20) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_call0_v27) S8192x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_call0_v28) S64x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v29) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v0) S8192.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x256 : Shape := ⟨2, ![100000, 256]⟩
abbrev S1200000 : Shape := ⟨1, ![1200000]⟩
abbrev S64x256 : Shape := ⟨2, ![64, 256]⟩
abbrev S64 : Shape := ⟨1, ![64]⟩
abbrev S1x64 : Shape := ⟨2, ![1, 64]⟩
abbrev S1 : Shape := ⟨1, ![1]⟩
abbrev S8192 : Shape := ⟨1, ![8192]⟩
abbrev S256x64 : Shape := ⟨2, ![256, 64]⟩
abbrev S100000x64 : Shape := ⟨2, ![100000, 64]⟩
abbrev S1200000x1 : Shape := ⟨2, ![1200000, 1]⟩
abbrev S_ : Shape := ⟨0, ![]⟩
abbrev S1200000x64 : Shape := ⟨2, ![1200000, 64]⟩
abbrev S8192x1 : Shape := ⟨2, ![8192, 1]⟩
abbrev S8192x64 : Shape := ⟨2, ![8192, 64]⟩
abbrev S64x1 : Shape := ⟨2, ![64, 1]⟩
abbrev S1x1 : Shape := ⟨2, ![1, 1]⟩

abbrev nBuf : Space → Nat
  | .hbm => 56
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1200000, .f32⟩
  | .hbm, ⟨2, _⟩ => ⟨S64x256, .f32⟩
  | .hbm, ⟨3, _⟩ => ⟨S64, .f32⟩
  | .hbm, ⟨4, _⟩ => ⟨S64x256, .f32⟩
  | .hbm, ⟨5, _⟩ => ⟨S64, .f32⟩
  | .hbm, ⟨6, _⟩ => ⟨S1x64, .f32⟩
  | .hbm, ⟨7, _⟩ => ⟨S1, .f32⟩
  | .hbm, ⟨8, _⟩ => ⟨S1200000, .i32⟩
  | .hbm, ⟨9, _⟩ => ⟨S1200000, .i32⟩
  | .hbm, ⟨10, _⟩ => ⟨S8192, .i32⟩
  | .hbm, ⟨11, _⟩ => ⟨S256x64, .f32⟩
  | .hbm, ⟨12, _⟩ => ⟨S100000x64, .f32⟩
  | .hbm, ⟨13, _⟩ => ⟨S1x64, .f32⟩
  | .hbm, ⟨14, _⟩ => ⟨S100000x64, .f32⟩
  | .hbm, ⟨15, _⟩ => ⟨S100000x64, .f32⟩
  | .hbm, ⟨16, _⟩ => ⟨S256x64, .f32⟩
  | .hbm, ⟨17, _⟩ => ⟨S100000x64, .f32⟩
  | .hbm, ⟨18, _⟩ => ⟨S1x64, .f32⟩
  | .hbm, ⟨19, _⟩ => ⟨S100000x64, .f32⟩
  | .hbm, ⟨20, _⟩ => ⟨S100000x64, .f32⟩
  | .hbm, ⟨21, _⟩ => ⟨S1200000x1, .f32⟩
  | .hbm, ⟨22, _⟩ => ⟨S_, .i32⟩
  | .hbm, ⟨23, _⟩ => ⟨S1200000, .i32⟩
  | .hbm, ⟨24, _⟩ => ⟨S1200000, .i1⟩
  | .hbm, ⟨25, _⟩ => ⟨S_, .i32⟩
  | .hbm, ⟨26, _⟩ => ⟨S1200000, .i32⟩
  | .hbm, ⟨27, _⟩ => ⟨S1200000, .i32⟩
  | .hbm, ⟨28, _⟩ => ⟨S1200000, .i32⟩
  | .hbm, ⟨29, _⟩ => ⟨S1200000x1, .i32⟩
  | .hbm, ⟨30, _⟩ => ⟨S1200000x64, .f32⟩
  | .hbm, ⟨31, _⟩ => ⟨S1200000x64, .f32⟩
  | .hbm, ⟨32, _⟩ => ⟨S1200000x64, .f32⟩
  | .hbm, ⟨33, _⟩ => ⟨S_, .f32⟩
  | .hbm, ⟨34, _⟩ => ⟨S100000x64, .f32⟩
  | .hbm, ⟨35, _⟩ => ⟨S1200000x1, .i32⟩
  | .hbm, ⟨36, _⟩ => ⟨S100000x64, .f32⟩
  | .hbm, ⟨37, _⟩ => ⟨S100000x64, .f32⟩
  | .hbm, ⟨38, _⟩ => ⟨S_, .f32⟩
  | .hbm, ⟨39, _⟩ => ⟨S100000x64, .f32⟩
  | .hbm, ⟨40, _⟩ => ⟨S100000x64, .f32⟩
  | .hbm, ⟨41, _⟩ => ⟨S_, .i32⟩
  | .hbm, ⟨42, _⟩ => ⟨S8192, .i32⟩
  | .hbm, ⟨43, _⟩ => ⟨S8192, .i1⟩
  | .hbm, ⟨44, _⟩ => ⟨S_, .i32⟩
  | .hbm, ⟨45, _⟩ => ⟨S8192, .i32⟩
  | .hbm, ⟨46, _⟩ => ⟨S8192, .i32⟩
  | .hbm, ⟨47, _⟩ => ⟨S8192, .i32⟩
  | .hbm, ⟨48, _⟩ => ⟨S8192x1, .i32⟩
  | .hbm, ⟨49, _⟩ => ⟨S8192x64, .f32⟩
  | .hbm, ⟨50, _⟩ => ⟨S64x1, .f32⟩
  | .hbm, ⟨51, _⟩ => ⟨S8192x1, .f32⟩
  | .hbm, ⟨52, _⟩ => ⟨S1x1, .f32⟩
  | .hbm, ⟨53, _⟩ => ⟨S8192x1, .f32⟩
  | .hbm, ⟨54, _⟩ => ⟨S8192x1, .f32⟩
  | .hbm, ⟨55, _⟩ => ⟨S8192, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_call0_cst : Ref sig .tc := ⟨.hbm, 38, rfl⟩
abbrev main_call0_v0 : Ref sig .tc := ⟨.hbm, 39, rfl⟩
abbrev main_v24 : Ref sig .tc := ⟨.hbm, 40, rfl⟩
abbrev main_c_1 : Ref sig .tc := ⟨.hbm, 41, rfl⟩
abbrev main_v25 : Ref sig .tc := ⟨.hbm, 42, rfl⟩
abbrev main_v26 : Ref sig .tc := ⟨.hbm, 43, rfl⟩
abbrev main_c_2 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩

abbrev nD : Nat := 1
abbrev τ : Topo := Topo.v7x

variable {F : FTy → Type} [FloatOps F]

class Facts₀ : Prop where
  transposes_S64x256_S256x64_1_0 : S64x256.Transposes [1, 0] S256x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1200000_S1200000x1_0 : S1200000.BroadcastsInDim S1200000x1 (![0] : Fin 1 → Fin S1200000x1.rank)
  bcast_S_S1200000 : S_.BroadcastsInDim S1200000 (![] : Fin 0 → Fin S1200000.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  bcast_S_S8192 : S_.BroadcastsInDim S8192 (![] : Fin 0 → Fin S8192.rank)
  bcast_S8192_S8192x1_0 : S8192.BroadcastsInDim S8192x1 (![0] : Fin 1 → Fin S8192x1.rank)
  transposes_S1x64_S64x1_1_0 : S1x64.Transposes [1, 0] S64x1
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  shapeCasts_S8192x1_S8192 : S8192x1.ShapeCasts S8192
  dot_S100000x256_S256x64_S100000x64_1_0_0_1_n_n_wf : DotDims.WF S100000x256 S256x64 S100000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  gather_S100000x64_S8192x1_S8192x64_1_0_n_n_0_1_164_wf : GatherDims.WF S100000x64 S8192x1 S8192x64 [1] [0] [] [0] [] 1 ![1, 64]
  dot_S8192x64_S64x1_S8192x1_1_0_0_1_n_n_wf : DotDims.WF S8192x64 S64x1 S8192x1 [1] [0] [0] [1] [] []

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def gather_S100000x64_S8192x1_S8192x64_1_0_n_n_0_1_164 : GatherDims S100000x64 S8192x1 S8192x64 where
  offsetDims := [1]
  collapsedSliceDims := [0]
  operandBatchingDims := []
  startIndicesBatchingDims := []
  startIndexMap := [0]
  indexVectorDim := 1
  sliceSizes := ![1, 64]
  wf := gather_S100000x64_S8192x1_S8192x64_1_0_n_n_0_1_164_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf

class Facts : Prop extends Facts₀ where

variable [Facts]
-- ==== Proof.Boundaries.lean ====
/-
  The idealized kernel's run, with every buffer named.

  @main is six segments: a stretch of host operations, the projection call, a second stretch (the slices, the
  edge-weighted gather and scatter-add), the combine call, a third stretch (the query gather, the transposed readout
  weights, the reshaped bias), the readout call. The buffer contents at the seven boundaries are a fold from the launch
  memory: a host stretch applies its operations, a call replaces its output array by what its write-backs leave and
  keeps every other buffer. Every weakly fair execution terminates, and in every final state each buffer that outlives
  the calls holds the last boundary's contents. The frame certificate keeps of this only that the arguments end as
  launched; a value claim needs the result buffer too, so the same run is stated here with the whole last boundary
  in its post.
-/
import proofs.«137608_j51032801411428_1_alg».proof.Proof.Gen.KernelIdeal.Frame

set_option maxRecDepth 16384

noncomputable section

namespace Cert.KernelIdeal.Boundaries

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, and in every final state each buffer that
    outlives the calls holds the last boundary's contents `W6`. -/
theorem run_last : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The result buffer in a final state: the last boundary's contents at it. -/
theorem last_main_v0 {s : MemSt nD τ sig (Elt F)}
    (h : ∀ c : Dev nD, ∀ b ∈ Pipeline.ucRefs τ sig, s.mem (((c : Thread nD τ)).1, b) = W6 m ρ c b) (c : Dev nD) :
    s.mem ((c.tc : Thread nD τ).loc main_v0) = W6 m ρ c (Proc.devRef .tc main_v0) :=
  h c _ (mem_uc main_v0 (by decide))

end Cert.KernelIdeal.Boundaries

end
-- ==== Proof.Arrays.lean ====
/-
  The three arrays the kernel's pallas_calls leave, each as ONE function of the arrays the call reads, index by
  index, on the extended reals:

  * the projection call: row `r`, column `q` of the node matrix times the stacked weight matrix (contracting the 256
    embedding coordinates), plus the stacked bias at column `q`;
  * the combine call: the larger of `x + agg` and zero, entry by entry;
  * the readout call: entry `r` is row `r` of the gathered hidden states against the single readout column
    (contracting the 64 hidden coordinates), plus the readout bias.

  A sum over a finite index of products on the extended reals is stated as is; nothing here needs its terms finite.
-/
import proofs.«137608_j51032801411428_1_alg».proof.KernelIdeal
import Idealize.ShloMosaic.PureOps.Ideal
import Idealize.ShloMosaic.Lib.ValueIdx

noncomputable section

namespace Cert.KernelIdeal.Arrays

open Cert.KernelIdeal Idealize.ShloMosaic

/-- The projection: `(ne · wt) r q + b 0 q`, the product contracting the 256 embedding coordinates. -/
def projArr (ne : FVec Ideal S100000x256 .f32) (wt : FVec Ideal S256x128 .f32) (b : FVec Ideal S1x128 .f32) :
    FVec Ideal S100000x128 .f32 := fun i =>
  (∑ k : Fin 256, ne (ValueIdx.ix2 (n0 := 100000) (n1 := 256) ⟨(i 0).val, (i 0).isLt⟩ k)
      * wt (ValueIdx.ix2 (n0 := 256) (n1 := 128) k ⟨(i 1).val, (i 1).isLt⟩))
    + b (ValueIdx.ix2 (n0 := 1) (n1 := 128) ⟨0, Nat.one_pos⟩ ⟨(i 1).val, (i 1).isLt⟩)

/-- The combine: `max (x + agg) 0`, entry by entry (the zero is the float word `0x00000000`). -/
def combineArr (x agg : FVec Ideal S100000x64 .f32) : FVec Ideal S100000x64 .f32 := fun i =>
  max (x i + agg i) (Ideal.ofBits .f32 0x00000000#32)

/-- The readout: `(hq · w) r + b`, the product contracting the 64 hidden coordinates against the one column. -/
def readoutArr (hq : FVec Ideal S8192x64 .f32) (w : FVec Ideal S64x1 .f32) (b : FVec Ideal S1x1 .f32) :
    FVec Ideal S8192 .f32 := fun i =>
  (∑ k : Fin 64, hq (ValueIdx.ix2 (n0 := 8192) (n1 := 64) ⟨(i 0).val, (i 0).isLt⟩ k)
      * w (ValueIdx.ix2 (n0 := 64) (n1 := 1) k ⟨0, Nat.one_pos⟩))
    + b (ValueIdx.ix2 (n0 := 1) (n1 := 1) ⟨0, Nat.one_pos⟩ ⟨0, Nat.one_pos⟩)

end Cert.KernelIdeal.Arrays

end
-- ==== Proof.Stages.lean ====
/-
  The idealized kernel's result as ONE function of its eleven arguments, stage by stage.

  * `wcat`, `bcat`: the two weight matrices stacked (128 rows) and transposed to 256 by 128; the two biases stacked
    and laid out as one row of 128.
  * `xm`: the projection call's array, `ne · wcat + bcat` (100000 by 128); its left 64 columns are the self
    projection `xOf`, its right 64 columns the neighbour projection `mOf`.
  * `aggOf`: the edge-weighted aggregation of a node array — each edge's source row gathered (a negative source
    index wrapped by adding 100000), scaled by the edge's weight, and added into the edge's destination row of a zero
    array. The kernel's program and the reference apply the SAME operations here, so the function is carried whole and
    never opened.
  * the combine call's array is `max (x + agg) 0`; `hqOf` gathers its rows at the query indices (wrapped the same
    way), again the same operations on both sides and never opened.
  * `wrT`, `br2`: the readout weights transposed to one column of 64, the readout bias as a 1 by 1 array; the readout
    call's array is `hq · wrT + br2`, read as a vector of 8192.
-/
import proofs.«137608_j51032801411428_1_alg».proof.Proof.Gen.KernelIdeal
import proofs.«137608_j51032801411428_1_alg».proof.Proof.Arrays
import Idealize.ShloMosaic.PureOps.Ideal

noncomputable section

namespace Cert.KernelIdeal.Stages

open Cert.KernelIdeal Cert.KernelIdeal.Gen Idealize.ShloMosaic

/-- The stacked weights, transposed: entry `(k, j)` is row `j` of `[ws; wn]` at column `k`. -/
def wcat (ws wn : FVec Ideal S64x256 .f32) : FVec Ideal S256x128 .f32 :=
  transpose S256x128 [1, 0]
    (concatenate S128x256 0 [⟨S64x256, ws⟩, ⟨S64x256, wn⟩] concatenates_S64x256_S64x256_S128x256_d0)
    transposes_S128x256_S256x128_1_0

/-- The stacked biases as one row of 128. -/
def bcat (bs bn : FVec Ideal S64 .f32) : FVec Ideal S1x128 .f32 :=
  shapeCast S1x128 (concatenate S128 0 [⟨S64, bs⟩, ⟨S64, bn⟩] concatenates_S64_S64_S128_d0) shapeCasts_S128_S1x128

/-- The projection call's array. -/
def xm (ne : FVec Ideal S100000x256 .f32) (ws wn : FVec Ideal S64x256 .f32) (bs bn : FVec Ideal S64 .f32) :
    FVec Ideal S100000x128 .f32 :=
  Arrays.projArr ne (wcat ws wn) (bcat bs bn)

/-- Columns 0 to 63 of the projection. -/
def xOf (p : FVec Ideal S100000x128 .f32) : FVec Ideal S100000x64 .f32 :=
  extractStridedSlice S100000x64 ![0, 0] p slices_S100000x128_S100000x64_0_0

/-- Columns 64 to 127 of the projection. -/
def mOf (p : FVec Ideal S100000x128 .f32) : FVec Ideal S100000x64 .f32 :=
  extractStridedSlice S100000x64 ![0, 64] p slices_S100000x128_S100000x64_0_64

/-- An index array with its negative entries wrapped by the node count, as one column. -/
def wrapE (ix : IVec S1200000 32) : IVec S1200000x1 32 :=
  broadcastInDim S1200000x1 ![0] bcast_S1200000_S1200000x1_0
    (select (cmpi .slt ix (broadcastInDim S1200000 ![] bcast_S_S1200000 (constantI S_ 32 0#32)))
      (addi ix (broadcastInDim S1200000 ![] bcast_S_S1200000 (constantI S_ 32 100000#32))) ix)

/-- The edge-weighted aggregation of the node array `mm`. -/
def aggOf (mm : FVec Ideal S100000x64 .f32) (ew : FVec Ideal S1200000 .f32) (src dst : IVec S1200000 32) :
    FVec Ideal S100000x64 .f32 :=
  Host.scatterAdd scatter_S100000x64_S1200000x1_S1200000x64_1_0_0_1
    (broadcastInDim S100000x64 ![] bcast_S_S100000x64 (constant (F := Ideal) S_ .f32 0x00000000#32))
    (broadcastInDim S1200000x1 ![0] bcast_S1200000_S1200000x1_0 dst)
    (mulf
      (broadcastInDim S1200000x64 ![0, 1] bcast_S1200000x1_S1200000x64_0_1
        (broadcastInDim S1200000x1 ![0] bcast_S1200000_S1200000x1_0 ew))
      (Host.gather gather_S100000x64_S1200000x1_S1200000x64_1_0_n_n_0_1_164 mm (wrapE src)))

/-- The rows of `h` at the query indices. -/
def hqOf (h : FVec Ideal S100000x64 .f32) (query : IVec S8192 32) : FVec Ideal S8192x64 .f32 :=
  Host.gather gather_S100000x64_S8192x1_S8192x64_1_0_n_n_0_1_164 h
    (broadcastInDim S8192x1 ![0] bcast_S8192_S8192x1_0
      (select (cmpi .slt query (broadcastInDim S8192 ![] bcast_S_S8192 (constantI S_ 32 0#32)))
        (addi query (broadcastInDim S8192 ![] bcast_S_S8192 (constantI S_ 32 100000#32))) query))

/-- The readout weights as one column. -/
def wrT (wr : FVec Ideal S1x64 .f32) : FVec Ideal S64x1 .f32 :=
  transpose S64x1 [1, 0] wr transposes_S1x64_S64x1_1_0

/-- The readout bias as a 1 by 1 array. -/
def br2 (br : FVec Ideal S1 .f32) : FVec Ideal S1x1 .f32 :=
  shapeCast S1x1 br shapeCasts_S1_S1x1

/-- The kernel's result: the readout of the combined hidden states gathered at the queries. -/
def result (ne : FVec Ideal S100000x256 .f32) (ew : FVec Ideal S1200000 .f32) (ws : FVec Ideal S64x256 .f32)
    (bs : FVec Ideal S64 .f32) (wn : FVec Ideal S64x256 .f32) (bn : FVec Ideal S64 .f32) (wr : FVec Ideal S1x64 .f32)
    (br : FVec Ideal S1 .f32) (src dst : IVec S1200000 32) (query : IVec S8192 32) : FVec Ideal S8192 .f32 :=
  Arrays.readoutArr
    (hqOf (Arrays.combineArr (xOf (xm ne ws wn bs bn)) (aggOf (mOf (xm ne ws wn bs bn)) ew src dst)) query)
    (wrT wr) (br2 br)

end Cert.KernelIdeal.Stages

end
-- ==== Proof.Stretches.lean ====
/-
  The host stretches of the idealized kernel's @main read back: each buffer a stretch writes, as the stage
  function of the buffers the stretch reads — stated for ANY contents `V` the stretch starts from, then at the
  boundaries of the run; and each argument a later stretch reads, walked back through the earlier boundaries to the
  launch memory (no host operation and no call writes an argument: a call only replaces its own output array).
-/
import proofs.«137608_j51032801411428_1_alg».proof.Proof.Gen.KernelIdeal.Frame
import proofs.«137608_j51032801411428_1_alg».proof.Proof.Stages
import Idealize.ShloMosaic.Lib.StableHlo.Run

set_option maxRecDepth 16384

noncomputable section

namespace Cert.KernelIdeal.Stretches

open Cert.KernelIdeal Cert.KernelIdeal.Gen Cert.KernelIdeal.Stages
open Idealize.ShloMosaic Idealize.ShloMosaic.TcCoe Idealize.SL.Sem Idealize.ShloMosaic.StableHlo

/-! ## Each stretch from any starting contents -/

section AnyContents
variable (V : Valuation τ sig (Elt Ideal))

theorem first_wcat :
    StableHlo.after hostOps0 V (Proc.devRef .tc main_call0_v3) = wcat (V (Proc.devRef .tc main_arg2)) (V (Proc.devRef .tc main_arg4)) := by
  after_results <;> rfl

theorem first_bcat :
    StableHlo.after hostOps0 V (Proc.devRef .tc main_call0_v2) = bcat (V (Proc.devRef .tc main_arg3)) (V (Proc.devRef .tc main_arg5)) := by
  after_results <;> rfl

theorem first_ne : StableHlo.after hostOps0 V (Proc.devRef .tc main_arg0) = (V (Proc.devRef .tc main_arg0)) := by
  after_results <;> rfl

set_option maxHeartbeats 2000000 in
theorem second_x :
    StableHlo.after hostOps1 V (Proc.devRef .tc main_call0_v5) = xOf (V (Proc.devRef .tc main_call0_v4)) := by
  after_results_simp <;> rfl

set_option maxHeartbeats 2000000 in
theorem second_agg :
    StableHlo.after hostOps1 V (Proc.devRef .tc main_call0_v19)
      = aggOf (mOf (V (Proc.devRef .tc main_call0_v4))) (V (Proc.devRef .tc main_arg1)) (V (Proc.devRef .tc main_arg8)) (V (Proc.devRef .tc main_arg9)) := by
  after_results_simp <;> rfl

set_option maxHeartbeats 2000000 in
theorem third_hq :
    StableHlo.after hostOps2 V (Proc.devRef .tc main_call0_v27) = hqOf (V (Proc.devRef .tc main_call0_v20)) (V (Proc.devRef .tc main_arg10)) := by
  after_results_simp <;> rfl

set_option maxHeartbeats 2000000 in
theorem third_wrT :
    StableHlo.after hostOps2 V (Proc.devRef .tc main_call0_v28) = wrT (V (Proc.devRef .tc main_arg6)) := by
  after_results_simp <;> rfl

set_option maxHeartbeats 2000000 in
theorem third_br2 :
    StableHlo.after hostOps2 V (Proc.devRef .tc main_call0_v29) = br2 (V (Proc.devRef .tc main_arg7)) := by
  after_results_simp <;> rfl

end AnyContents

variable (m : (ℓ : Loc nD τ sig) → Buf (Elt Ideal) ℓ) (ρ : Dev nD → PrngReg)

/-- No operation of a stretch writes the buffer: the stretch's operations listed, each one's written buffer compared. -/
macro "not_written " ops:ident : tactic => `(tactic|
  (refine List.forall_iff_forall_mem.mp ?_
   simp only [$ops:ident, List.flatten_cons, List.flatten_nil, List.append_nil, List.cons_append, List.nil_append,
     List.Forall, StableHlo.nullary_writes, StableHlo.unary_writes, StableHlo.binary_writes, StableHlo.ternary_writes, StableHlo.quaternary_writes, StableHlo.reshape_writes, StableHlo.binaryIndexed_writes, Finset.mem_singleton]
   repeat' apply And.intro
   all_goals exact StableHlo.devRef_ne_of_ne (by decide)))

/-! ## Before the projection call -/

theorem W1_wcat (c : Dev nD) :
    W1 m ρ c (Proc.devRef .tc main_call0_v3)
      = wcat (m ((c : Thread nD τ).loc main_arg2)) (m ((c : Thread nD τ).loc main_arg4)) :=
  first_wcat (W0 m ρ c)

theorem W1_bcat (c : Dev nD) :
    W1 m ρ c (Proc.devRef .tc main_call0_v2)
      = bcat (m ((c : Thread nD τ).loc main_arg3)) (m ((c : Thread nD τ).loc main_arg5)) :=
  first_bcat (W0 m ρ c)

theorem W1_ne (c : Dev nD) : W1 m ρ c (Proc.devRef .tc main_arg0) = m ((c : Thread nD τ).loc main_arg0) :=
  first_ne (W0 m ρ c)

/-- An argument the first stretch does not write is, after the first call, as launched. -/
theorem W2_of_arg (c : Dev nD) (b : Ref sig .tc) (h0 : ∀ w, Pipeline.arrRef spec0 w ≠ b)
    (h1 : ∀ op ∈ (hostOps0 : List (HloOp τ sig (Elt Ideal))), Proc.devRef .tc b ∉ op.writes) :
    W2 m ρ c (Proc.devRef .tc b) = m ((c : Thread nD τ).loc b) :=
  (W2_of_ne m ρ c b h0).trans (StableHlo.after_of_forall_not_mem (b := Proc.devRef .tc b) _ _ h1)

theorem W2_ew (c : Dev nD) : W2 m ρ c (Proc.devRef .tc main_arg1) = m ((c : Thread nD τ).loc main_arg1) :=
  W2_of_arg m ρ c main_arg1 (by decide) (by not_written hostOps0)
theorem W2_src (c : Dev nD) : W2 m ρ c (Proc.devRef .tc main_arg8) = m ((c : Thread nD τ).loc main_arg8) :=
  W2_of_arg m ρ c main_arg8 (by decide) (by not_written hostOps0)
theorem W2_dst (c : Dev nD) : W2 m ρ c (Proc.devRef .tc main_arg9) = m ((c : Thread nD τ).loc main_arg9) :=
  W2_of_arg m ρ c main_arg9 (by decide) (by not_written hostOps0)

/-! ## Between the projection call and the combine call -/

theorem W3_x (c : Dev nD) :
    W3 m ρ c (Proc.devRef .tc main_call0_v5) = xOf (W2 m ρ c (Proc.devRef .tc main_call0_v4)) :=
  second_x (W2 m ρ c)

theorem W3_agg (c : Dev nD) :
    W3 m ρ c (Proc.devRef .tc main_call0_v19)
      = aggOf (mOf (W2 m ρ c (Proc.devRef .tc main_call0_v4))) (W2 m ρ c (Proc.devRef .tc main_arg1))
          (W2 m ρ c (Proc.devRef .tc main_arg8)) (W2 m ρ c (Proc.devRef .tc main_arg9)) :=
  second_agg (W2 m ρ c)

/-- An argument neither of the first two stretches writes is, after the second call, as launched. -/
theorem W4_of_arg (c : Dev nD) (b : Ref sig .tc) (h0 : ∀ w, Pipeline.arrRef spec0 w ≠ b) (h2 : ∀ w, Pipeline.arrRef spec1 w ≠ b)
    (h1 : ∀ op ∈ (hostOps0 : List (HloOp τ sig (Elt Ideal))), Proc.devRef .tc b ∉ op.writes)
    (h3 : ∀ op ∈ (hostOps1 : List (HloOp τ sig (Elt Ideal))), Proc.devRef .tc b ∉ op.writes) :
    W4 m ρ c (Proc.devRef .tc b) = m ((c : Thread nD τ).loc b) :=
  (W4_of_ne m ρ c b h2).trans
    ((StableHlo.after_of_forall_not_mem (b := Proc.devRef .tc b) _ _ h3).trans (W2_of_arg m ρ c b h0 h1))

theorem W4_query (c : Dev nD) : W4 m ρ c (Proc.devRef .tc main_arg10) = m ((c : Thread nD τ).loc main_arg10) :=
  W4_of_arg m ρ c main_arg10 (by decide) (by decide) (by not_written hostOps0) (by not_written hostOps1)
theorem W4_wr (c : Dev nD) : W4 m ρ c (Proc.devRef .tc main_arg6) = m ((c : Thread nD τ).loc main_arg6) :=
  W4_of_arg m ρ c main_arg6 (by decide) (by decide) (by not_written hostOps0) (by not_written hostOps1)
theorem W4_br (c : Dev nD) : W4 m ρ c (Proc.devRef .tc main_arg7) = m ((c : Thread nD τ).loc main_arg7) :=
  W4_of_arg m ρ c main_arg7 (by decide) (by decide) (by not_written hostOps0) (by not_written hostOps1)

/-! ## Between the combine call and the readout call -/

theorem W5_hq (c : Dev nD) :
    W5 m ρ c (Proc.devRef .tc main_call0_v27)
      = hqOf (W4 m ρ c (Proc.devRef .tc main_call0_v20)) (W4 m ρ c (Proc.devRef .tc main_arg10)) :=
  third_hq (W4 m ρ c)

theorem W5_wrT (c : Dev nD) :
    W5 m ρ c (Proc.devRef .tc main_call0_v28) = wrT (W4 m ρ c (Proc.devRef .tc main_arg6)) :=
  third_wrT (W4 m ρ c)

theorem W5_br2 (c : Dev nD) :
    W5 m ρ c (Proc.devRef .tc main_call0_v29) = br2 (W4 m ρ c (Proc.devRef .tc main_arg7)) :=
  third_br2 (W4 m ρ c)

end Cert.KernelIdeal.Stretches

end
-- ==== Proof.ProjArray.lean ====
/-
  The projection call's output array as one function of the arrays the call reads.

  The call runs over twenty grid points. Point `t` reads rows `5000 t … 5000 t + 4999` of the node matrix
  [100000, 256], the whole weight matrix [256, 128] and the whole bias row [1, 128], and writes rows
  `5000 t … 5000 t + 4999` of the output [100000, 128]. What it writes at row `p`, column `q` of its block is

      ∑ k < 256, nodes (5000 t + p, k) * weights (k, q)  +  bias (0, q)

  on the extended reals: the narrowing of the two factors to bf16 is the identity there, the product into a zero
  accumulator is the plain sum, and the bias row is repeated down the rows. The twenty blocks tile the output (row `r`
  lies in block `r / 5000`), so the output ends holding that function at every index.
-/
import proofs.«137608_j51032801411428_1_alg».proof.Proof.Gen.KernelIdeal.Frame
import proofs.«137608_j51032801411428_1_alg».proof.Proof.Arrays
import Idealize.ShloMosaic.Lib.Pipeline.Value
import Idealize.ShloMosaic.Lib.ValueIdx
import Idealize.ShloMosaic.PureOps.Ideal.Laws

noncomputable section

namespace Cert.KernelIdeal.ProjArray

open Cert.KernelIdeal Idealize.ShloMosaic Idealize.ShloMosaic.TcCoe Idealize.SL.Sem Idealize.ShloMosaic.ValueIdx

/-! ## The block product at an index -/

/-- The left factor of the block product is read at the output's row … -/
theorem lhs_row (i : S5000x128.Idx) (k : dot_S5000x256_S256x128_S5000x128_1_0_0_1_n_n.contr.Idx) :
    (dot_S5000x256_S256x128_S5000x128_1_0_0_1_n_n.lhsIdx i k 0).val = (i 0).val := by
  unfold DotDims.lhsIdx
  rw [dif_neg (show ¬(0 : Fin S5000x256.rank) ∈ dot_S5000x256_S256x128_S5000x128_1_0_0_1_n_n.lhsBatch by decide),
    dif_pos (show (0 : Fin S5000x256.rank) ∈ dot_S5000x256_S256x128_S5000x128_1_0_0_1_n_n.lhsNonContracting by decide)]
  rfl
/-- … and at the contracted coordinate; -/
theorem lhs_col (i : S5000x128.Idx) (k : dot_S5000x256_S256x128_S5000x128_1_0_0_1_n_n.contr.Idx) :
    (dot_S5000x256_S256x128_S5000x128_1_0_0_1_n_n.lhsIdx i k 1).val = (k ⟨0, by decide⟩).val :=
  dot_S5000x256_S256x128_S5000x128_1_0_0_1_n_n.lhsIdx_val_of_single rfl i k
/-- the right factor at the contracted coordinate … -/
theorem rhs_row (i : S5000x128.Idx) (k : dot_S5000x256_S256x128_S5000x128_1_0_0_1_n_n.contr.Idx) :
    (dot_S5000x256_S256x128_S5000x128_1_0_0_1_n_n.rhsIdx i k 0).val = (k ⟨0, by decide⟩).val :=
  dot_S5000x256_S256x128_S5000x128_1_0_0_1_n_n.rhsIdx_val_of_single rfl i k
/-- … and at the output's column. -/
theorem rhs_col (i : S5000x128.Idx) (k : dot_S5000x256_S256x128_S5000x128_1_0_0_1_n_n.contr.Idx) :
    (dot_S5000x256_S256x128_S5000x128_1_0_0_1_n_n.rhsIdx i k 1).val = (i 1).val := by
  unfold DotDims.rhsIdx
  rw [dif_neg (show ¬(1 : Fin S256x128.rank) ∈ dot_S5000x256_S256x128_S5000x128_1_0_0_1_n_n.rhsBatch by decide),
    dif_pos (show (1 : Fin S256x128.rank) ∈ dot_S5000x256_S256x128_S5000x128_1_0_0_1_n_n.rhsNonContracting by decide)]
  rfl

/-- The product of a block of 5000 rows with the weight matrix into a zero accumulator, at row `p` and column `q`,
    is the sum over the 256 contracted coordinates of the products of the entries. -/
theorem blockProd_apply (a : FVec Ideal S5000x256 .bf16) (b : FVec Ideal S256x128 .bf16) (p : Fin 5000) (q : Fin 128) :
    matmul dot_S5000x256_S256x128_S5000x128_1_0_0_1_n_n none a b (constant S5000x128 .f32 0x00000000#32) (ix2 p q)
      = ∑ k : Fin 256, a (ix2 p k) * b (ix2 k q) := by
  show FloatOps.matmul dot_S5000x256_S256x128_S5000x128_1_0_0_1_n_n none a b (constant S5000x128 .f32 0x00000000#32) (ix2 p q) = _
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k :=
    funext fun a => Fin.ext (by
      match a with
      | ⟨0, _⟩ => exact lhs_row _ _
      | ⟨1, _⟩ => exact (lhs_col _ _).trans hk)
  have er : dot_S5000x256_S256x128_S5000x128_1_0_0_1_n_n.rhsIdx (ix2 p q) ((contrEquiv1 dot_S5000x256_S256x128_S5000x128_1_0_0_1_n_n 256 rfl rfl).symm k) = ix2 k q :=
    funext fun a => Fin.ext (by
      match a with
      | ⟨0, _⟩ => exact (rhs_row _ _).trans hk
      | ⟨1, _⟩ => exact rhs_col _ _)
  rw [el, er]

/-! ## What one grid point computes -/

/-- THE BLOCK AT AN INDEX: row `p`, column `q` of what one grid point stores is the row of the node block against the
    column of the weight matrix, plus the bias at the column. (The narrowing to bf16 is the identity on the extended
    reals, the casts are to the same shape, the bias row is repeated down the rows.) -/
theorem pay_apply (x0 : Vec Ideal S5000x256 .f32) (x1 : Vec Ideal S256x128 .f32) (x2 : Vec Ideal S1x128 .f32)
    (p : Fin 5000) (q : Fin 128) :
    Gen.k0_pay1 x0 x1 x2 (ix2 p q) = (∑ k : Fin 256, x0 (ix2 p k) * x1 (ix2 k q)) + x2 (ix2 ⟨0, Nat.one_pos⟩ q) := by
  unfold Gen.k0_pay1
  rw [addf_apply, shapeCast_self, shapeCast_self, blockProd_apply,
    broadcastTo_apply x2 Gen.broadcasts_S1x128_S5000x128 (ix2 p q) (ix2 ⟨0, Nat.one_pos⟩ q) (fun a => match a with
      | ⟨0, _⟩ => rfl
      | ⟨1, _⟩ => by show q.val = if (128 : Nat) = 1 then 0 else q.val; rw [if_neg (by decide)])]
  rfl

/-- A block whose inputs are rows `5000 T …` of the node matrix, the whole weight matrix and the whole bias row holds,
    at block index `j`, the projection at the array index `i` with row `5000 T + j 0` and column `j 1`. -/
theorem pay_is_blk (x0 : Vec Ideal S5000x256 .f32) (x1 : Vec Ideal S256x128 .f32) (x2 : Vec Ideal S1x128 .f32)
    (ne : FVec Ideal S100000x256 .f32) (wt : FVec Ideal S256x128 .f32) (b : FVec Ideal S1x128 .f32) (T : Nat)
    (h0 : ∀ (p : Fin 5000) (k : Fin 256) (r : Fin 100000), r.val = 5000 * T + p.val → x0 (ix2 p k) = ne (ix2 r k))
    (h1 : ∀ (k : Fin 256) (q : Fin 128), x1 (ix2 k q) = wt (ix2 k q))
    (h2 : ∀ (z : Fin 1) (q : Fin 128), x2 (ix2 z q) = b (ix2 z q))
    (j : S5000x128.Idx) (i : S100000x128.Idx) (hi0 : (i 0).val = 5000 * T + (j 0).val) (hi1 : (i 1).val = (j 1).val) :
    Gen.k0_pay1 x0 x1 x2 j = Arrays.projArr ne wt b i := by
  obtain ⟨p, q, rfl⟩ : ∃ (p : Fin 5000) (q : Fin 128), j = ix2 p q := ⟨j 0, j 1, eq_ix2 j⟩
  rw [pay_apply]
  show _ = (∑ k : Fin 256, ne (ix2 (n0 := 100000) (n1 := 256) ⟨(i 0).val, (i 0).isLt⟩ k)
      * wt (ix2 (n0 := 256) (n1 := 128) k ⟨(i 1).val, (i 1).isLt⟩))
    + b (ix2 (n0 := 1) (n1 := 128) ⟨0, Nat.one_pos⟩ ⟨(i 1).val, (i 1).isLt⟩)
  have hq : (⟨(i 1).val, (i 1).isLt⟩ : Fin 128) = q := Fin.ext hi1
  rw [hq, h2]
  congr 1
  refine Finset.sum_congr rfl fun k _ => ?_
  rw [h0 p k ⟨(i 0).val, (i 0).isLt⟩ hi0, h1]

/-! ## Where the blocks sit -/

/-- The two zero offsets of a whole-block access, as the constant zero function. -/
theorem hz : (![0, 0] : Fin 2 → Nat) = fun _ => 0 := funext fun a => by fin_cases a <;> rfl

/-- The index maps, decided over the grid: the node block and the output block of point `t` are block row `t`,
    column block 0; the weight matrix and the bias row are read whole at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- An index of the output is in point `t`'s block iff each coordinate is in the block's range on its axis. -/
theorem mem_blk (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_call0_v4).slice (win0_3.rect t)).set ↔ _
  rw [View.set_slice_whole, Rect.mem_set_unit]
  exact Iff.rfl

/-- THE BLOCKS TILE THE OUTPUT: row `r` lies in the block of point `r / 5000`, which writes its block back. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := Gen.N_0
  obtain ⟨t, ht⟩ : ∃ t : Fin cfg0.N, t.val = (i 0).val / 5000 := ⟨⟨(i 0).val / 5000, by rw [hN]; omega⟩, rfl⟩
  obtain ⟨-, -, -, -, -, -, e6, e7⟩ := idx_facts t
  refine ⟨t, Gen.flush0_3 t, ?_⟩
  rw [mem_blk]
  intro a
  match a with
  | ⟨0, _⟩ =>
    show win0_3.index t 0 * 5000 ≤ (i 0).val ∧ (i 0).val < win0_3.index t 0 * 5000 + 5000
    rw [e6, ht]; omega
  | ⟨1, _⟩ =>
    show win0_3.index t 1 * 128 ≤ (i 1).val ∧ (i 1).val < win0_3.index t 1 * 128 + 128
    rw [e7]; omega

/-! ## The array after the region, at arbitrary entry contents -/

section
-- the buffer contents when the region is entered: a variable, never evaluated
variable (V : (c : Dev nD) → (b : Ref sig .tc) → Buf (Elt Ideal) ((c : Thread nD τ).loc b))

/-- The node block at point `t` is rows `5000 t … 5000 t + 4999` of the node matrix. -/
theorem nodes_blk (c : Dev nD) (t : Fin cfg0.N) (p : Fin 5000) (k : Fin 256) (r : Fin 100000)
    (hr : r.val = 5000 * t.val + p.val) :
    (Gen.iblk0 V c 0 t : Vec Ideal S5000x256 .f32) (ix2 p k)
      = (V c main_arg0 : S100000x256.Idx → Elt Ideal .f32) (ix2 r k) := by
  obtain ⟨e0, e1, -⟩ := idx_facts t
  unfold Gen.iblk0
  rw [View.read_apply]
  show V c main_arg0 _ = V c main_arg0 _
  congr 1
  funext a
  apply Fin.ext
  match a with
  | ⟨0, _⟩ => show win0_0.index t 0 * 5000 + 1 * p.val = r.val; rw [e0, hr]; omega
  | ⟨1, _⟩ => show win0_0.index t 1 * 256 + 1 * k.val = k.val; rw [e1]; omega

/-- The weight block at every point is the whole weight matrix. -/
theorem weights_blk (c : Dev nD) (t : Fin cfg0.N) (k : Fin 256) (q : Fin 128) :
    (Gen.iblk0 V c 1 t : Vec Ideal S256x128 .f32) (ix2 k q)
      = (V c main_call0_v3 : S256x128.Idx → Elt Ideal .f32) (ix2 k q) := by
  obtain ⟨-, -, e0, e1, -⟩ := idx_facts t
  unfold Gen.iblk0
  rw [View.read_apply]
  show V c main_call0_v3 _ = V c main_call0_v3 _
  congr 1
  funext a
  apply Fin.ext
  match a with
  | ⟨0, _⟩ => show win0_1.index t 0 * 256 + 1 * k.val = k.val; rw [e0]; omega
  | ⟨1, _⟩ => show win0_1.index t 1 * 128 + 1 * q.val = q.val; rw [e1]; omega

/-- The bias block at every point is the whole bias row. -/
theorem bias_blk (c : Dev nD) (t : Fin cfg0.N) (z : Fin 1) (q : Fin 128) :
    (Gen.iblk0 V c 2 t : Vec Ideal S1x128 .f32) (ix2 z q)
      = (V c main_call0_v2 : S1x128.Idx → Elt Ideal .f32) (ix2 z q) := by
  obtain ⟨-, -, -, -, e0, e1, -⟩ := idx_facts t
  unfold Gen.iblk0
  rw [View.read_apply]
  show V c main_call0_v2 _ = V c main_call0_v2 _
  congr 1
  funext a
  apply Fin.ext
  match a with
  | ⟨0, _⟩ => show win0_2.index t 0 * 1 + 1 * z.val = z.val; rw [e0]; omega
  | ⟨1, _⟩ => show win0_2.index t 1 * 128 + 1 * q.val = q.val; rw [e1]; omega

/-- WHAT POINT `t` WRITES BACK is block `t` of the projection of the three arrays as the region finds them. -/
theorem flushed_eq (c : Dev nD) (t : Fin cfg0.N) :
    (Gen.dat0 V c).flushed 3 t = ((cfg0.win 3).blk t).view.read (Elt Ideal)
      (Arrays.projArr (V c main_arg0) (V c main_call0_v3) (V c main_call0_v2)) := by
  show (cfg0.win 3).cut (grid0.coords t) ((Gen.dat0 V c).after 3 t) = _
  rw [Gen.after0_3]
  unfold Gen.out0_3
  rw [View.canon_unit_zero hz]
  simp only [View.ld_unit_zero (S := S5000x256) hz, View.ld_unit_zero (S := S256x128) hz,
    View.ld_unit_zero (S := S1x128) hz]
  funext j
  obtain ⟨-, -, -, -, -, -, e6, e7⟩ := idx_facts t
  show Gen.k0_pay1 (Gen.iblk0 V c 0 t) (Gen.iblk0 V c 1 t) (Gen.iblk0 V c 2 t) j
    = Arrays.projArr (V c main_arg0) (V c main_call0_v3) (V c main_call0_v2) (((cfg0.win 3).blk t).view.emb j)
  refine pay_is_blk (Gen.iblk0 V c 0 t) (Gen.iblk0 V c 1 t) (Gen.iblk0 V c 2 t) (V c main_arg0) (V c main_call0_v3)
    (V c main_call0_v2) t.val (fun p k r hr => nodes_blk V c t p k r hr) (fun k q => weights_blk V c t k q)
    (fun z q => bias_blk V c t z q) j (((cfg0.win 3).blk t).view.emb j) ?_ ?_
  · show win0_3.index t 0 * 5000 + 1 * (j 0).val = 5000 * t.val + (j 0).val
    rw [e6]; omega
  · show win0_3.index t 1 * 128 + 1 * (j 1).val = (j 1).val
    rw [e7]; omega

/-- THE PROJECTION CALL'S OUTPUT after its twenty points: the node matrix times the weight matrix plus the bias row,
    as one function of the three arrays the region finds on entry. -/
theorem final (c : Dev nD) :
    (Gen.dat0 V c).arrAt 3 cfg0.N = Arrays.projArr (V c main_arg0) (V c main_call0_v3) (V c main_call0_v2) :=
  (Gen.dat0 V c).arrAt_eq_of_cover 3 (Arrays.projArr (V c main_arg0) (V c main_call0_v3) (V c main_call0_v2))
    (fun t _ => flushed_eq V c t) cover

end

end Cert.KernelIdeal.ProjArray

end
-- ==== Proof.CombineArray.lean ====
/-
  The combine call's output array as one function of the two arrays it reads.

  The call runs over 20 grid points. At point `t` each of its three windows (the two inputs and the output, all
  [100000,64] arrays cut into [5000,64] blocks) sits on block `(t, 0)`: rows `5000 t … 5000 t + 4999`, all 64 columns.
  The body stores, entry by entry, the larger of `x + agg` and zero. So what point `t` writes back is block `t` of the
  whole-array function `Arrays.combineArr x agg`, the 20 blocks tile the array (row `r` lies in block `r / 5000`), and
  the array the call leaves is `Arrays.combineArr x agg`.
-/
import proofs.«137608_j51032801411428_1_alg».proof.Proof.Gen.KernelIdeal.Frame
import proofs.«137608_j51032801411428_1_alg».proof.Proof.Arrays
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.CombineArray

open Cert.KernelIdeal Cert.KernelIdeal.Gen

variable (V : (c : Dev nD) → (b : Ref sig .tc) → Buf (Elt Ideal) ((c : Thread nD τ).loc b))

/-- The body reads and writes its staging buffers from offset `(0, 0)`. -/
theorem offsets_zero : (![0, 0] : Fin 2 → Nat) = fun _ => 0 := funext fun a => by fin_cases a <;> rfl

/-- The body's stored value at an entry: the two loaded blocks' entries added, then the larger of that and the zero
    word (the same-shape casts are the identity; sum, splat and maximum act entry by entry). -/
theorem payload_apply (x0 x1 : Vec Ideal S5000x64 .f32) (j : S5000x64.Idx) :
    Gen.k1_pay1 x0 x1 j = max (x0 j + x1 j) (Ideal.ofBits .f32 0x00000000#32) := by
  unfold Gen.k1_pay1
  simp only [shapeCast_self]
  rfl

/-- The whole-array function at an index `i`, from any two numbers that are the two arrays' entries at `i`. -/
theorem combine_at (A B : FVec Ideal S100000x64 .f32) (a b : Ideal .f32) (i : S100000x64.Idx)
    (ha : a = A i) (hb : b = B i) :
    max (a + b) (Ideal.ofBits .f32 0x00000000#32) = Arrays.combineArr A B i := by
  subst ha hb; rfl

/-- The three windows' block indices, decided over the 20 grid points: each is `(t, 0)`. -/
theorem index_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0 :=
  (by decide +kernel : ∀ t : Fin grid1.N, _)

/-- What point `t` writes back is block `t` of `Arrays.combineArr` of the two input arrays as the call finds them:
    entry `j` of each input block is the array's entry at block index × block size + `j`, and the three windows share
    their block index, so the three blocks sit over the same rows. -/
theorem flushed_eq (c : Dev nD) (t : Fin cfg1.N) :
    (Gen.dat1 V c).flushed 2 t
      = ((cfg1.win 2).blk t).view.read (Elt Ideal) (Arrays.combineArr (V c main_call0_v5) (V c main_call0_v19)) := by
  show (cfg1.win 2).cut (grid1.coords t) ((Gen.dat1 V c).after 2 t) = _
  rw [Gen.after1_2]
  unfold Gen.out1_2
  rw [View.canon_unit_zero offsets_zero]
  simp only [View.ld_unit_zero (S := S5000x64) offsets_zero]
  funext j
  obtain ⟨e0, e1, e2, e3, e4, e5⟩ := index_facts t
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb j = ((cfg1.win 2).blk t).view.emb j := by
    funext a; apply Fin.ext
    match a with
    | ⟨0, _⟩ => show win1_1.index t (0 : Fin 2) * 5000 + 1 * (j 0).val = win1_2.index t (0 : Fin 2) * 5000 + 1 * (j 0).val; omega
    | ⟨1, _⟩ => show win1_1.index t (1 : Fin 2) * 64 + 1 * (j 1).val = win1_2.index t (1 : Fin 2) * 64 + 1 * (j 1).val; omega
  refine (payload_apply (Gen.iblk1 V c 0 t) (Gen.iblk1 V c 1 t) j).trans ?_
  refine combine_at (V c main_call0_v5) (V c main_call0_v19) _ _ (((cfg1.win 2).blk t).view.emb j) ?_ ?_
  · show V c main_call0_v5 (((cfg1.win 0).blk t).view.emb j) = V c main_call0_v5 (((cfg1.win 2).blk t).view.emb j)
    rw [h0]
  · show V c main_call0_v19 (((cfg1.win 1).blk t).view.emb j) = V c main_call0_v19 (((cfg1.win 2).blk t).view.emb j)
    rw [h1]

/-- An index of the array is in point `t`'s output block iff each coordinate is in the block's range on its axis. -/
theorem mem_block (t : Fin cfg1.N) (i : S100000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_call0_v20).slice (win1_2.rect t)).set ↔ _
  rw [View.set_slice_whole, Rect.mem_set_unit]
  exact Iff.rfl

/-- The array the combine call leaves: every index `(r, q)` lies in the block of point `r / 5000`, every point writes
    its block back, so the array ends holding `Arrays.combineArr` of the two input arrays. -/
theorem final (c : Dev nD) :
    (Gen.dat1 V c).arrAt 2 cfg1.N = Arrays.combineArr (V c main_call0_v5) (V c main_call0_v19) := by
  refine (Gen.dat1 V c).arrAt_eq_of_cover 2 _ (fun t _ => flushed_eq V c t) (fun i => ?_)
  have hi0 : (i 0).val < 100000 := (i 0).isLt
  have hi1 : (i 1).val < 64 := (i 1).isLt
  have hN : cfg1.N = 20 := Gen.N_1
  let t : Fin cfg1.N := ⟨(i 0).val / 5000, by rw [hN]; omega⟩
  obtain ⟨e0, e1, e2, e3, e4, e5⟩ := index_facts t
  refine ⟨t, Gen.flush1_2 t, ?_⟩
  rw [mem_block]
  intro a
  have ht : t.val = (i 0).val / 5000 := rfl
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

end Cert.KernelIdeal.CombineArray

end
-- ==== Proof.ReadoutArray.lean ====
/-
  The readout call's output array as one function of the three arrays it reads.

  The call has ONE grid point, and each of its four windows is the whole of its array: the gathered hidden states
  [8192,64], the readout column [64,1], the bias [1,1], and the output [8192]. The body multiplies the hidden states by
  the column, contracting the 64 hidden coordinates, into a zero accumulator; adds the bias, repeated down the 8192
  rows; and reads the [8192,1] result as a flat [8192] vector. So entry `r` of what the point writes back is
  `(∑ k, h r k * w k 0) + b 0 0`, which is `Arrays.readoutArr h w b` at `r`; the one block covers the array.
  (The narrowing format change in front of the product is the identity on the extended reals.)
-/
import proofs.«137608_j51032801411428_1_alg».proof.Proof.Gen.KernelIdeal.Frame
import proofs.«137608_j51032801411428_1_alg».proof.Proof.Arrays
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.ReadoutArray

open Cert.KernelIdeal Cert.KernelIdeal.Gen

variable (V : (c : Dev nD) → (b : Ref sig .tc) → Buf (Elt Ideal) ((c : Thread nD τ).loc b))

/-- The left operand's index at output index `i` and contraction index `q`: row `i 0` … -/
theorem lhs_row (i : S8192x1.Idx) (q : dot_S8192x64_S64x1_S8192x1_1_0_0_1_n_n.contr.Idx) :
    (dot_S8192x64_S64x1_S8192x1_1_0_0_1_n_n.lhsIdx i q 0).val = (i 0).val := by
  unfold DotDims.lhsIdx
  rw [dif_neg (show ¬(0 : Fin S8192x64.rank) ∈ dot_S8192x64_S64x1_S8192x1_1_0_0_1_n_n.lhsBatch by decide), dif_pos (show (0 : Fin S8192x64.rank) ∈ dot_S8192x64_S64x1_S8192x1_1_0_0_1_n_n.lhsNonContracting by decide)]
  rfl
/-- … column the contraction coordinate. -/
theorem lhs_contr (i : S8192x1.Idx) (q : dot_S8192x64_S64x1_S8192x1_1_0_0_1_n_n.contr.Idx) :
    (dot_S8192x64_S64x1_S8192x1_1_0_0_1_n_n.lhsIdx i q 1).val = (q ⟨0, by decide⟩).val :=
  dot_S8192x64_S64x1_S8192x1_1_0_0_1_n_n.lhsIdx_val_of_single rfl i q
/-- The right operand's index: row the contraction coordinate … -/
theorem rhs_contr (i : S8192x1.Idx) (q : dot_S8192x64_S64x1_S8192x1_1_0_0_1_n_n.contr.Idx) :
    (dot_S8192x64_S64x1_S8192x1_1_0_0_1_n_n.rhsIdx i q 0).val = (q ⟨0, by decide⟩).val :=
  dot_S8192x64_S64x1_S8192x1_1_0_0_1_n_n.rhsIdx_val_of_single rfl i q
/-- … column `i 1`. -/
theorem rhs_col (i : S8192x1.Idx) (q : dot_S8192x64_S64x1_S8192x1_1_0_0_1_n_n.contr.Idx) :
    (dot_S8192x64_S64x1_S8192x1_1_0_0_1_n_n.rhsIdx i q 1).val = (i 1).val := by
  unfold DotDims.rhsIdx
  rw [dif_neg (show ¬(1 : Fin S64x1.rank) ∈ dot_S8192x64_S64x1_S8192x1_1_0_0_1_n_n.rhsBatch by decide), dif_pos (show (1 : Fin S64x1.rank) ∈ dot_S8192x64_S64x1_S8192x1_1_0_0_1_n_n.rhsNonContracting by decide)]
  rfl

/-- The product into the zero accumulator, read at `(r, 0)`: the sum over the 64 contraction coordinates `k` of the left
    operand at `(r, k)` times the right operand at `(k, 0)` (the contraction's one-axis index re-indexed by its coordinate). -/
theorem matmul_at (y0 : FVec Ideal S8192x64 .bf16) (y1 : FVec Ideal S64x1 .bf16) (r : Fin 8192) :
    matmul dot_S8192x64_S64x1_S8192x1_1_0_0_1_n_n none y0 y1 (constant (F := Ideal) S8192x1 .f32 0x00000000#32)
        (ix2 (n0 := 8192) (n1 := 1) r ⟨0, Nat.one_pos⟩)
      = ∑ k : Fin 64, y0 (ix2 (n0 := 8192) (n1 := 64) r k) * y1 (ix2 (n0 := 64) (n1 := 1) k ⟨0, Nat.one_pos⟩) := by
  simp only [matmul]
  rw [Ideal.matmul_constant_zero_apply, ← Equiv.sum_comp (ValueIdx.contrEquiv1 dot_S8192x64_S64x1_S8192x1_1_0_0_1_n_n 64 rfl rfl).symm]
  refine Finset.sum_congr rfl fun k _ => ?_
  have hk := ValueIdx.contrEquiv1_symm_val dot_S8192x64_S64x1_S8192x1_1_0_0_1_n_n 64 rfl rfl k
  have el : dot_S8192x64_S64x1_S8192x1_1_0_0_1_n_n.lhsIdx (ix2 (n0 := 8192) (n1 := 1) r ⟨0, Nat.one_pos⟩) ((ValueIdx.contrEquiv1 dot_S8192x64_S64x1_S8192x1_1_0_0_1_n_n 64 rfl rfl).symm k) = ix2 (n0 := 8192) (n1 := 64) r k := funext fun a => Fin.ext (by
    match a with
    | ⟨0, _⟩ => exact lhs_row _ _
    | ⟨1, _⟩ => exact (lhs_contr _ _).trans hk)
  have er : dot_S8192x64_S64x1_S8192x1_1_0_0_1_n_n.rhsIdx (ix2 (n0 := 8192) (n1 := 1) r ⟨0, Nat.one_pos⟩) ((ValueIdx.contrEquiv1 dot_S8192x64_S64x1_S8192x1_1_0_0_1_n_n 64 rfl rfl).symm k) = ix2 (n0 := 64) (n1 := 1) k ⟨0, Nat.one_pos⟩ := funext fun a => Fin.ext (by
    match a with
    | ⟨0, _⟩ => exact (rhs_contr _ _).trans hk
    | ⟨1, _⟩ => exact rhs_col _ _)
  rw [el, er]

/-- The body's stored value at entry `r`: the flat vector's entry `r` is the [8192,1] matrix's entry `(r, 0)` (same row-major
    position); there the sum is the product's entry plus the repeated bias's, and the bias repeated down the rows reads its
    one entry `(0, 0)`. -/
theorem payload_apply (x0 : Vec Ideal S8192x64 .f32) (x1 : Vec Ideal S64x1 .f32) (x2 : Vec Ideal S1x1 .f32) (r : Fin 8192) :
    Gen.k2_pay1 x0 x1 x2 (ix1 r)
      = (∑ k : Fin 64, x0 (ix2 (n0 := 8192) (n1 := 64) r k) * x1 (ix2 (n0 := 64) (n1 := 1) k ⟨0, Nat.one_pos⟩))
        + x2 (ix2 (n0 := 1) (n1 := 1) ⟨0, Nat.one_pos⟩ ⟨0, Nat.one_pos⟩) := by
  unfold Gen.k2_pay1
  simp only [shapeCast_self]
  refine (shapeCast_apply _ shapeCasts_S8192x1_S8192 (ix1 r) (ix2 (n0 := 8192) (n1 := 1) r ⟨0, Nat.one_pos⟩) ?_).trans ?_
  · rewrite [Shape.rowMajor_val_two, Shape.rowMajor_val_one]
    show r.val * 1 + 0 = r.val
    omega
  refine (addf_apply _ _ _).trans ?_
  refine congrArg₂ (· + ·) ?_ ?_
  · exact matmul_at (truncf .bf16 x0 bitsLt_bf16_f32) (truncf .bf16 x1 bitsLt_bf16_f32) r
  · exact broadcastTo_apply x2 broadcasts_S1x1_S8192x1 _ (ix2 (n0 := 1) (n1 := 1) ⟨0, Nat.one_pos⟩ ⟨0, Nat.one_pos⟩) (fun a => match a with
      | ⟨0, _⟩ => by show 0 = if (1 : Nat) = 1 then 0 else _; rw [if_pos rfl]
      | ⟨1, _⟩ => by show 0 = if (1 : Nat) = 1 then 0 else _; rw [if_pos rfl])

/-- The body reads and writes its staging buffers from offset zero on every axis. -/
theorem offsets_zero1 : (![0] : Fin 1 → Nat) = fun _ => 0 := funext fun a => by fin_cases a; rfl
theorem offsets_zero2 : (![0, 0] : Fin 2 → Nat) = fun _ => 0 := funext fun a => by fin_cases a <;> rfl

/-- The stored value at entry `r` is the whole-array function at any index `i` whose coordinate is `r`, once the three
    loaded blocks agree with the three arrays at the entries the sum reads. -/
theorem readout_at (A : FVec Ideal S8192x64 .f32) (B : FVec Ideal S64x1 .f32) (C : FVec Ideal S1x1 .f32)
    (x0 : Vec Ideal S8192x64 .f32) (x1 : Vec Ideal S64x1 .f32) (x2 : Vec Ideal S1x1 .f32) (r : Fin 8192) (i : S8192.Idx)
    (hi : (i 0).val = r.val)
    (h0 : ∀ k : Fin 64, x0 (ix2 (n0 := 8192) (n1 := 64) r k) = A (ix2 (n0 := 8192) (n1 := 64) r k))
    (h1 : ∀ k : Fin 64, x1 (ix2 (n0 := 64) (n1 := 1) k ⟨0, Nat.one_pos⟩) = B (ix2 (n0 := 64) (n1 := 1) k ⟨0, Nat.one_pos⟩))
    (h2 : x2 (ix2 (n0 := 1) (n1 := 1) ⟨0, Nat.one_pos⟩ ⟨0, Nat.one_pos⟩) = C (ix2 (n0 := 1) (n1 := 1) ⟨0, Nat.one_pos⟩ ⟨0, Nat.one_pos⟩)) :
    Gen.k2_pay1 x0 x1 x2 (ix1 r) = Arrays.readoutArr A B C i := by
  obtain rfl : r = ⟨(i 0).val, (i 0).isLt⟩ := Fin.ext hi.symm
  rw [payload_apply, h2]
  unfold Arrays.readoutArr
  exact congrArg (· + _) (Finset.sum_congr rfl fun k _ => by rw [h0 k, h1 k])

/-- The four windows' block indices at the one grid point, decided: all zero. -/
theorem index_facts : ∀ t : Fin cfg2.N, win2_0.index t (0 : Fin 2) = 0
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 1) = 0 :=
  (by decide +kernel : ∀ t : Fin grid2.N, _)

/-- What the grid point writes back is its block of `Arrays.readoutArr` of the three input arrays as the call finds them:
    every block index is zero and every block is its whole array, so a block's entry `y` is the array's entry `0 * size + y`. -/
theorem flushed_eq (c : Dev nD) (t : Fin cfg2.N) :
    (Gen.dat2 V c).flushed 3 t
      = ((cfg2.win 3).blk t).view.read (Elt Ideal)
          (Arrays.readoutArr (V c main_call0_v27) (V c main_call0_v28) (V c main_call0_v29)) := by
  show (cfg2.win 3).cut (grid2.coords t) ((Gen.dat2 V c).after 3 t) = _
  rw [Gen.after2_3]
  unfold Gen.out2_3
  rw [View.canon_unit_zero offsets_zero1]
  simp only [View.ld_unit_zero (S := S8192x64) offsets_zero2, View.ld_unit_zero (S := S64x1) offsets_zero2, View.ld_unit_zero (S := S1x1) offsets_zero2]
  funext j
  obtain ⟨e0, e1, e2, e3, e4, e5, e6⟩ := index_facts t
  obtain ⟨r, rfl⟩ : ∃ r : Fin 8192, j = ix1 r := ⟨j 0, eq_ix1 j⟩
  refine readout_at (V c main_call0_v27) (V c main_call0_v28) (V c main_call0_v29)
    (Gen.iblk2 V c 0 t) (Gen.iblk2 V c 1 t) (Gen.iblk2 V c 2 t) r (((cfg2.win 3).blk t).view.emb (ix1 r)) ?_ ?_ ?_ ?_
  · show win2_3.index t (0 : Fin 1) * 8192 + 1 * r.val = r.val
    omega
  · intro k
    have h : ((cfg2.win 0).blk t).view.emb (ix2 (n0 := 8192) (n1 := 64) r k) = ix2 (n0 := 8192) (n1 := 64) r k := by
      funext a; apply Fin.ext
      match a with
      | ⟨0, _⟩ => show win2_0.index t (0 : Fin 2) * 8192 + 1 * r.val = r.val; omega
      | ⟨1, _⟩ => show win2_0.index t (1 : Fin 2) * 64 + 1 * k.val = k.val; omega
    show V c main_call0_v27 (((cfg2.win 0).blk t).view.emb (ix2 (n0 := 8192) (n1 := 64) r k)) = V c main_call0_v27 (ix2 (n0 := 8192) (n1 := 64) r k)
    rw [h]
  · intro k
    have h : ((cfg2.win 1).blk t).view.emb (ix2 (n0 := 64) (n1 := 1) k ⟨0, Nat.one_pos⟩) = ix2 (n0 := 64) (n1 := 1) k ⟨0, Nat.one_pos⟩ := by
      funext a; apply Fin.ext
      match a with
      | ⟨0, _⟩ => show win2_1.index t (0 : Fin 2) * 64 + 1 * k.val = k.val; omega
      | ⟨1, _⟩ => show win2_1.index t (1 : Fin 2) * 1 + 1 * 0 = 0; omega
    show V c main_call0_v28 (((cfg2.win 1).blk t).view.emb (ix2 (n0 := 64) (n1 := 1) k ⟨0, Nat.one_pos⟩)) = V c main_call0_v28 (ix2 (n0 := 64) (n1 := 1) k ⟨0, Nat.one_pos⟩)
    rw [h]
  · have h : ((cfg2.win 2).blk t).view.emb (ix2 (n0 := 1) (n1 := 1) ⟨0, Nat.one_pos⟩ ⟨0, Nat.one_pos⟩) = ix2 (n0 := 1) (n1 := 1) ⟨0, Nat.one_pos⟩ ⟨0, Nat.one_pos⟩ := by
      funext a; apply Fin.ext
      match a with
      | ⟨0, _⟩ => show win2_2.index t (0 : Fin 2) * 1 + 1 * 0 = 0; omega
      | ⟨1, _⟩ => show win2_2.index t (1 : Fin 2) * 1 + 1 * 0 = 0; omega
    show V c main_call0_v29 (((cfg2.win 2).blk t).view.emb (ix2 (n0 := 1) (n1 := 1) ⟨0, Nat.one_pos⟩ ⟨0, Nat.one_pos⟩)) = V c main_call0_v29 (ix2 (n0 := 1) (n1 := 1) ⟨0, Nat.one_pos⟩ ⟨0, Nat.one_pos⟩)
    rw [h]

/-- An index of the output array is in the point's block iff its coordinate is in the block's range. -/
theorem mem_block (t : Fin cfg2.N) (i : S8192.Idx) :
    i ∈ ((cfg2.win 3).blk t).view.set ↔ ∀ a : Fin 1, win2_3.index t a * S8192.size a ≤ (i a).val
      ∧ (i a).val < win2_3.index t a * S8192.size a + S8192.size a := by
  show i ∈ ((View.whole main_v0).slice (win2_3.rect t)).set ↔ _
  rw [View.set_slice_whole, Rect.mem_set_unit]
  exact Iff.rfl

/-- The array the readout call leaves: the one point's block is rows `0 … 8191`, which is every index, and the point writes
    it back, so the array ends holding `Arrays.readoutArr` of the three input arrays. -/
theorem final (c : Dev nD) :
    (Gen.dat2 V c).arrAt 3 cfg2.N
      = Arrays.readoutArr (V c main_call0_v27) (V c main_call0_v28) (V c main_call0_v29) := by
  refine (Gen.dat2 V c).arrAt_eq_of_cover 3 _ (fun t _ => flushed_eq V c t) (fun i => ?_)
  have hi0 : (i 0).val < 8192 := (i 0).isLt
  obtain ⟨e0, e1, e2, e3, e4, e5, e6⟩ := index_facts Gen.t2_0
  refine ⟨Gen.t2_0, Gen.flush2_3 Gen.t2_0, ?_⟩
  rw [mem_block]
  intro a
  match a with
  | ⟨0, _⟩ => show win2_3.index Gen.t2_0 (0 : Fin 1) * 8192 ≤ (i 0).val ∧ (i 0).val < win2_3.index Gen.t2_0 (0 : Fin 1) * 8192 + 8192; omega
-- ==== Proof.Fold.lean ====
/-
  The idealized kernel's result buffer after the run, as the stage function of the launch memory's arguments.

  The last boundary's contents at the result buffer are what the readout call leaves: `hq · wrT + br2` of the buffers
  that call reads. Those were written by the third host stretch from the combine call's array and the arguments; the
  combine call's array is `max (x + agg) 0` of the buffers the second stretch wrote from the projection call's array and
  the arguments; the projection call's array is `ne · wcat + bcat` of the buffers the first stretch wrote from the
  arguments. Composing the three calls' arrays with the three stretches gives `Stages.result` of the arguments.
-/
import proofs.«137608_j51032801411428_1_alg».proof.Proof.Boundaries
import proofs.«137608_j51032801411428_1_alg».proof.Proof.Stretches
import proofs.«137608_j51032801411428_1_alg».proof.Proof.ProjArray
import proofs.«137608_j51032801411428_1_alg».proof.Proof.CombineArray
import proofs.«137608_j51032801411428_1_alg».proof.Proof.ReadoutArray

set_option maxRecDepth 16384

noncomputable section

namespace Cert.KernelIdeal.Fold

open Cert.KernelIdeal Cert.KernelIdeal.Gen Cert.KernelIdeal.Stages Cert.KernelIdeal.Stretches
open Idealize.ShloMosaic Idealize.ShloMosaic.TcCoe Idealize.SL.Sem

variable (m : (ℓ : Loc nD τ sig) → Buf (Elt Ideal) ℓ) (ρ : Dev nD → PrngReg)

/-- After the projection call its output array is `xm` of the arguments. -/
theorem after_projection (c : Dev nD) :
    W2 m ρ c (Proc.devRef .tc main_call0_v4) = xm (m ((c : Thread nD τ).loc main_arg0)) (m ((c : Thread nD τ).loc main_arg2)) (m ((c : Thread nD τ).loc main_arg4)) (m ((c : Thread nD τ).loc main_arg3)) (m ((c : Thread nD τ).loc main_arg5)) := by
  have h0 : V1 m ρ c main_arg0 = (m ((c : Thread nD τ).loc main_arg0)) := W1_ne m ρ c
  have h1 : V1 m ρ c main_call0_v3 = wcat (m ((c : Thread nD τ).loc main_arg2)) (m ((c : Thread nD τ).loc main_arg4)) := W1_wcat m ρ c
  have h2 : V1 m ρ c main_call0_v2 = bcat (m ((c : Thread nD τ).loc main_arg3)) (m ((c : Thread nD τ).loc main_arg5)) := W1_bcat m ρ c
  refine (W2_arr m ρ c 3).trans ((ProjArray.final (V1 m ρ) c).trans ?_)
  rw [h0, h1, h2]
  rfl

/-- After the combine call its output array is `max (x + agg) 0` of the arguments' projections. -/
theorem after_combine (c : Dev nD) :
    W4 m ρ c (Proc.devRef .tc main_call0_v20)
      = Arrays.combineArr (xOf (xm (m ((c : Thread nD τ).loc main_arg0)) (m ((c : Thread nD τ).loc main_arg2)) (m ((c : Thread nD τ).loc main_arg4)) (m ((c : Thread nD τ).loc main_arg3)) (m ((c : Thread nD τ).loc main_arg5))))
          (aggOf (mOf (xm (m ((c : Thread nD τ).loc main_arg0)) (m ((c : Thread nD τ).loc main_arg2)) (m ((c : Thread nD τ).loc main_arg4)) (m ((c : Thread nD τ).loc main_arg3)) (m ((c : Thread nD τ).loc main_arg5)))) (m ((c : Thread nD τ).loc main_arg1)) (m ((c : Thread nD τ).loc main_arg8)) (m ((c : Thread nD τ).loc main_arg9))) := by
  have h0 : V3 m ρ c main_call0_v5 = xOf (xm (m ((c : Thread nD τ).loc main_arg0)) (m ((c : Thread nD τ).loc main_arg2)) (m ((c : Thread nD τ).loc main_arg4)) (m ((c : Thread nD τ).loc main_arg3)) (m ((c : Thread nD τ).loc main_arg5))) :=
    (W3_x m ρ c).trans (by rw [after_projection])
  have h1 : V3 m ρ c main_call0_v19
      = aggOf (mOf (xm (m ((c : Thread nD τ).loc main_arg0)) (m ((c : Thread nD τ).loc main_arg2)) (m ((c : Thread nD τ).loc main_arg4)) (m ((c : Thread nD τ).loc main_arg3)) (m ((c : Thread nD τ).loc main_arg5)))) (m ((c : Thread nD τ).loc main_arg1)) (m ((c : Thread nD τ).loc main_arg8)) (m ((c : Thread nD τ).loc main_arg9)) :=
    (W3_agg m ρ c).trans (by rw [after_projection, W2_ew, W2_src, W2_dst])
  refine (W4_arr m ρ c 2).trans ((CombineArray.final (V3 m ρ) c).trans ?_)
  rw [h0, h1]

/-- The last boundary's contents at the result buffer: the stage function of the arguments. -/
theorem last_result (c : Dev nD) :
    W6 m ρ c (Proc.devRef .tc main_v0) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have h0 : V5 m ρ c main_call0_v27
      = hqOf (Arrays.combineArr (xOf (xm (m ((c : Thread nD τ).loc main_arg0)) (m ((c : Thread nD τ).loc main_arg2)) (m ((c : Thread nD τ).loc main_arg4)) (m ((c : Thread nD τ).loc main_arg3)) (m ((c : Thread nD τ).loc main_arg5))))
          (aggOf (mOf (xm (m ((c : Thread nD τ).loc main_arg0)) (m ((c : Thread nD τ).loc main_arg2)) (m ((c : Thread nD τ).loc main_arg4)) (m ((c : Thread nD τ).loc main_arg3)) (m ((c : Thread nD τ).loc main_arg5)))) (m ((c : Thread nD τ).loc main_arg1)) (m ((c : Thread nD τ).loc main_arg8)) (m ((c : Thread nD τ).loc main_arg9)))) (m ((c : Thread nD τ).loc main_arg10)) :=
    (W5_hq m ρ c).trans (by rw [after_combine, W4_query])
  have h1 : V5 m ρ c main_call0_v28 = wrT (m ((c : Thread nD τ).loc main_arg6)) := (W5_wrT m ρ c).trans (by rw [W4_wr])
  have h2 : V5 m ρ c main_call0_v29 = br2 (m ((c : Thread nD τ).loc main_arg7)) := (W5_br2 m ρ c).trans (by rw [W4_br])
  refine (W6_arr m ρ c 3).trans ((ReadoutArray.final (V5 m ρ) c).trans ?_)
  rw [h0, h1, h2]
  unfold result
  rfl

/-- THE KERNEL'S RUN, read: every weakly fair execution terminates with the result buffer at the stage function of the
    arguments and the arguments as launched. -/
theorem run : θ_run defs (onTc (τ := τ) (main (F := Ideal))) ⟨m, fun _ => 0, ρ⟩ (fun r => ∀ c : Dev nD,
      r.2.mem ((c.tc : Thread nD τ).loc main_v0) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(Boundaries.last_main_v0 m ρ h c).trans (last_result m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c),
     (h c _ (mem_uc main_arg9 (by decide))).trans (W6_main_arg9 m ρ c),
     (h c _ (mem_uc main_arg10 (by decide))).trans (W6_main_arg10 m ρ c)⟩)
    (Boundaries.run_last m ρ)

end Cert.KernelIdeal.Fold

end
-- ==== Proof.Projection.lean ====
/-
  The fused projection against the two separate ones.

  The kernel multiplies the node matrix once by the two weight matrices stacked (`[ws; wn]`, transposed) and adds the
  two biases stacked; the reference multiplies it by `ws` transposed and by `wn` transposed separately. Column `j` of
  the stacked product, for `j < 64`, is `∑ k, ne r k · ws j k + bs j` — the stack's row `j` IS row `j` of `ws` — and
  column `64 + j` is `∑ k, ne r k · wn j k + bn j`. The sums run over the same 256 embedding coordinates in the same
  order on both sides, term for term: nothing is rearranged, so nothing needs the entries finite.
-/
import proofs.«137608_j51032801411428_1_alg».proof.Proof.Stages
import proofs.«137608_j51032801411428_1_alg».proof.Proof.Gen.ReferenceIdeal.Read
import Idealize.ShloMosaic.Lib.Pipeline.Value
import Idealize.ShloMosaic.Lib.ValueIdx

noncomputable section

namespace Cert.KernelIdeal.Bridge

open Cert.KernelIdeal Cert.KernelIdeal.Gen Cert.KernelIdeal.Stages Idealize.ShloMosaic Idealize.ShloMosaic.ValueIdx

/-! ## The stacked operands read at an index -/

/-- The stacked, transposed weights at `(k, j)`, `j` in the left half: `ws j k`. -/
theorem wcat_left (ws wn : FVec Ideal S64x256 .f32) (k : Fin 256) (j : Fin 128) (hj : j.val < 64) :
    wcat ws wn (ix2 k j) = ws (ix2 ⟨j.val, hj⟩ k) := by
  unfold wcat
  rw [transpose_apply [1, 0] _ transposes_S128x256_S256x128_1_0 (ix2 k j) (ix2 j k) (fun b => match b with
    | ⟨0, _⟩ => rfl
    | ⟨1, _⟩ => rfl)]
  exact concatenate_pair_apply_left 0 ws wn concatenates_S64x256_S64x256_S128x256_d0 (ix2 j k) rfl (ix2 ⟨j.val, hj⟩ k)
    (fun b => match b with
      | ⟨0, _⟩ => rfl
      | ⟨1, _⟩ => rfl)

/-- The stacked, transposed weights at `(k, j)`, `j` in the right half: `wn (j - 64) k`. -/
theorem wcat_right (ws wn : FVec Ideal S64x256 .f32) (k : Fin 256) (j : Fin 128) (hj : 64 ≤ j.val) :
    wcat ws wn (ix2 k j) = wn (ix2 ⟨j.val - 64, by have := j.isLt; omega⟩ k) := by
  unfold wcat
  rw [transpose_apply [1, 0] _ transposes_S128x256_S256x128_1_0 (ix2 k j) (ix2 j k) (fun b => match b with
    | ⟨0, _⟩ => rfl
    | ⟨1, _⟩ => rfl)]
  exact concatenate_pair_apply_right 0 ws wn concatenates_S64x256_S64x256_S128x256_d0 (ix2 j k) rfl rfl
    (ix2 ⟨j.val - 64, by have := j.isLt; omega⟩ k)
    (fun b => match b with
      | ⟨0, _⟩ => fun h => absurd rfl h
      | ⟨1, _⟩ => fun _ => rfl)
    (by show j.val - 64 + 64 = j.val; omega)

/-- The stacked bias row at column `j` of the left half: `bs j`. -/
theorem bcat_left (bs bn : FVec Ideal S64 .f32) (j : Fin 128) (hj : j.val < 64) :
    bcat bs bn (ix2 (n0 := 1) ⟨0, Nat.one_pos⟩ j) = bs (ix1 ⟨j.val, hj⟩) := by
  unfold bcat
  rw [shapeCast_apply _ shapeCasts_S128_S1x128 (ix2 (n0 := 1) ⟨0, Nat.one_pos⟩ j) (ix1 j)
    (by rw [Shape.rowMajor_val_two, Shape.rowMajor_val_one]; show j.val = 0 * 128 + j.val; omega)]
  exact concatenate_pair_apply_left 0 bs bn concatenates_S64_S64_S128_d0 (ix1 j) rfl (ix1 ⟨j.val, hj⟩)
    (fun b => match b with
      | ⟨0, _⟩ => rfl)

/-- The stacked bias row at column `j` of the right half: `bn (j - 64)`. -/
theorem bcat_right (bs bn : FVec Ideal S64 .f32) (j : Fin 128) (hj : 64 ≤ j.val) :
    bcat bs bn (ix2 (n0 := 1) ⟨0, Nat.one_pos⟩ j) = bn (ix1 ⟨j.val - 64, by have := j.isLt; omega⟩) := by
  unfold bcat
  rw [shapeCast_apply _ shapeCasts_S128_S1x128 (ix2 (n0 := 1) ⟨0, Nat.one_pos⟩ j) (ix1 j)
    (by rw [Shape.rowMajor_val_two, Shape.rowMajor_val_one]; show j.val = 0 * 128 + j.val; omega)]
  exact concatenate_pair_apply_right 0 bs bn concatenates_S64_S64_S128_d0 (ix1 j) rfl rfl
    (ix1 ⟨j.val - 64, by have := j.isLt; omega⟩)
    (fun b => match b with
      | ⟨0, _⟩ => fun h => absurd rfl h)
    (by show j.val - 64 + 64 = j.val; omega)

/-- The projection call's array at `(r, j)`. -/
theorem xm_apply (ne : FVec Ideal S100000x256 .f32) (ws wn : FVec Ideal S64x256 .f32) (bs bn : FVec Ideal S64 .f32)
    (r : Fin 100000) (j : Fin 128) :
    xm ne ws wn bs bn (ix2 r j)
      = (∑ k : Fin 256, ne (ix2 r k) * wcat ws wn (ix2 k j)) + bcat bs bn (ix2 (n0 := 1) ⟨0, Nat.one_pos⟩ j) := rfl

/-! ## The two halves are the reference's two projections -/

open Cert.ReferenceIdeal.Read in
/-- The left 64 columns: the self projection `ne · wsᵀ + bs`. -/
theorem x_eq (ne : FVec Ideal S100000x256 .f32) (ws wn : FVec Ideal S64x256 .f32) (bs bn : FVec Ideal S64 .f32) :
    xOf (xm ne ws wn bs bn) = val_main_v4 (F := Ideal) ne ws bs := by
  funext i
  obtain ⟨r, q, rfl⟩ : ∃ (r : Fin 100000) (q : Fin 64), i = ix2 r q := ⟨i 0, i 1, eq_ix2 i⟩
  have hq : q.val < 64 := q.isLt
  unfold xOf
  rw [extractStridedSlice_apply ![0, 0] _ slices_S100000x128_S100000x64_0_0 (ix2 r q)
    (ix2 r (⟨q.val, by omega⟩ : Fin 128)) (fun a => match a with
      | ⟨0, _⟩ => by show r.val = 0 + r.val; omega
      | ⟨1, _⟩ => by show q.val = 0 + q.val; omega)]
  have e1 : ∀ k : Fin 256, lidx_main_v1 (ix2 r q) k = ix2 r k := fun k => funext fun a => match a with
    | ⟨0, _⟩ => rfl
    | ⟨1, _⟩ => rfl
  have e2 : ∀ k : Fin 256, idx_main_v0 (ridx_main_v1 (ix2 r q) k) = ix2 (⟨q.val, hq⟩ : Fin 64) k :=
    fun k => funext fun a => match a with
    | ⟨0, _⟩ => rfl
    | ⟨1, _⟩ => rfl
  have e3 : idx_main_v2 (idx_main_v3 (ix2 r q)) = ix1 (⟨q.val, hq⟩ : Fin 64) := funext fun a => match a with
    | ⟨0, _⟩ => rfl
  rw [xm_apply, bcat_left bs bn _ hq, val_main_v4_apply, val_main_v1_apply, val_main_v3_apply, val_main_v2_apply, e3]
  show _ = (∑ k : Fin 256, ne (lidx_main_v1 (ix2 r q) k) * val_main_v0 (F := Ideal) ws (ridx_main_v1 (ix2 r q) k)) + _
  congr 1
  refine Finset.sum_congr rfl fun k _ => ?_
  rw [wcat_left ws wn k _ hq, val_main_v0_apply, e1, e2]

open Cert.ReferenceIdeal.Read in
/-- The right 64 columns: the neighbour projection `ne · wnᵀ + bn`. -/
theorem m_eq (ne : FVec Ideal S100000x256 .f32) (ws wn : FVec Ideal S64x256 .f32) (bs bn : FVec Ideal S64 .f32) :
    mOf (xm ne ws wn bs bn) = val_main_v9 (F := Ideal) ne wn bn := by
  funext i
  obtain ⟨r, q, rfl⟩ : ∃ (r : Fin 100000) (q : Fin 64), i = ix2 r q := ⟨i 0, i 1, eq_ix2 i⟩
  have hq : q.val < 64 := q.isLt
  unfold mOf
  rw [extractStridedSlice_apply ![0, 64] _ slices_S100000x128_S100000x64_0_64 (ix2 r q)
    (ix2 r (⟨64 + q.val, by omega⟩ : Fin 128)) (fun a => match a with
      | ⟨0, _⟩ => by show r.val = 0 + r.val; omega
      | ⟨1, _⟩ => rfl)]
  have hq' : 64 ≤ 64 + q.val := by omega
  have e1 : ∀ k : Fin 256, lidx_main_v6 (ix2 r q) k = ix2 r k := fun k => funext fun a => match a with
    | ⟨0, _⟩ => rfl
    | ⟨1, _⟩ => rfl
  have e2 : ∀ k : Fin 256, idx_main_v5 (ridx_main_v6 (ix2 r q) k) = ix2 (⟨64 + q.val - 64, by omega⟩ : Fin 64) k :=
    fun k => funext fun a => match a with
    | ⟨0, _⟩ => Fin.ext (by show q.val = 64 + q.val - 64; omega)
    | ⟨1, _⟩ => rfl
  have e3 : idx_main_v7 (idx_main_v8 (ix2 r q)) = ix1 (⟨64 + q.val - 64, by omega⟩ : Fin 64) :=
    funext fun a => match a with
    | ⟨0, _⟩ => Fin.ext (by show q.val = 64 + q.val - 64; omega)
  rw [xm_apply, bcat_right bs bn _ hq', val_main_v9_apply, val_main_v6_apply, val_main_v8_apply, val_main_v7_apply, e3]
  show _ = (∑ k : Fin 256, ne (lidx_main_v6 (ix2 r q) k) * val_main_v5 (F := Ideal) wn (ridx_main_v6 (ix2 r q) k)) + _
  congr 1
  refine Finset.sum_congr rfl fun k _ => ?_
  rw [wcat_right ws wn k _ hq', val_main_v5_apply, e1, e2]

end Cert.KernelIdeal.Bridge

end
-- ==== Proof.Bridge.lean ====
/-
  From the two projections to the result: the rest of the two programs is the same computation.

  Given the neighbour projection, the edge-weighted aggregation is the same operations on both sides (so it is never
  opened: the two terms are one). The combine call's array `max (x + agg) 0` is the reference's `relu (x + agg)` entry
  by entry. The query gather is again the same operation. The readout call's `hq · wrT + br2`, read as a vector, is the
  reference's product with the transposed weights plus the broadcast bias, reshaped: the same sum over the 64 hidden
  coordinates, term for term.
-/
import proofs.«137608_j51032801411428_1_alg».proof.Proof.Projection

noncomputable section

namespace Cert.KernelIdeal.Bridge

open Cert.KernelIdeal Cert.KernelIdeal.Gen Cert.KernelIdeal.Stages Idealize.ShloMosaic Idealize.ShloMosaic.ValueIdx
open Cert.ReferenceIdeal.Read

/-- The aggregation of the reference's neighbour projection is the reference's aggregation: one term. -/
theorem agg_eq (ne : FVec Ideal S100000x256 .f32) (ew : FVec Ideal S1200000 .f32) (wn : FVec Ideal S64x256 .f32)
    (bn : FVec Ideal S64 .f32) (src dst : IVec S1200000 32) :
    aggOf (val_main_v9 (F := Ideal) ne wn bn) ew src dst = val_main_v22 (F := Ideal) ne ew wn bn src dst := rfl

/-- `max (x + agg) 0` is the reference's `relu (x + agg)`, entry by entry. -/
theorem h_eq (ne : FVec Ideal S100000x256 .f32) (ew : FVec Ideal S1200000 .f32) (ws : FVec Ideal S64x256 .f32)
    (bs : FVec Ideal S64 .f32) (wn : FVec Ideal S64x256 .f32) (bn : FVec Ideal S64 .f32) (src dst : IVec S1200000 32) :
    Arrays.combineArr (val_main_v4 (F := Ideal) ne ws bs) (val_main_v22 (F := Ideal) ne ew wn bn src dst)
      = val_main_v24 (F := Ideal) ne ew ws bs wn bn src dst := by
  funext i
  rfl

/-- The rows gathered at the queries: one term. -/
theorem hq_eq (ne : FVec Ideal S100000x256 .f32) (ew : FVec Ideal S1200000 .f32) (ws : FVec Ideal S64x256 .f32)
    (bs : FVec Ideal S64 .f32) (wn : FVec Ideal S64x256 .f32) (bn : FVec Ideal S64 .f32) (src dst : IVec S1200000 32)
    (query : IVec S8192 32) :
    hqOf (val_main_v24 (F := Ideal) ne ew ws bs wn bn src dst) query
      = val_main_v31 (F := Ideal) ne ew ws bs wn bn src dst query := rfl

/-- The readout array at entry `r`. -/
theorem readoutArr_apply (hq : FVec Ideal S8192x64 .f32) (w : FVec Ideal S64x1 .f32) (b : FVec Ideal S1x1 .f32)
    (r : Fin 8192) :
    Arrays.readoutArr hq w b (ix1 r)
      = (∑ k : Fin 64, hq (ix2 r k) * w (ix2 k (⟨0, Nat.one_pos⟩ : Fin 1)))
        + b (ix2 (n0 := 1) (n1 := 1) ⟨0, Nat.one_pos⟩ ⟨0, Nat.one_pos⟩) := rfl

/-- The reference's readout at entry `r`, over ANY gathered rows `hq` and column `w`: the same sum. -/
theorem ref_readout_apply (hq : FVec Ideal S8192x64 .f32) (w : FVec Ideal S64x1 .f32) (br : FVec Ideal S1 .f32)
    (r : Fin 8192) :
    (∑ k : Fin 64, hq (lidx_main_v33 (idx_main_v37 (ix1 r)) k) * w (ridx_main_v33 (idx_main_v37 (ix1 r)) k))
        + br (idx_main_v34 (idx_main_v35 (idx_main_v37 (ix1 r))))
      = (∑ k : Fin 64, hq (ix2 r k) * w (ix2 k (⟨0, Nat.one_pos⟩ : Fin 1))) + br (ix1 (⟨0, Nat.one_pos⟩ : Fin 1)) := by
  have e1 : ∀ k : Fin 64, lidx_main_v33 (idx_main_v37 (ix1 r)) k = ix2 r k := fun k => funext fun a => match a with
    | ⟨0, _⟩ => Fin.ext (by show r.val / 1 = r.val; omega)
    | ⟨1, _⟩ => rfl
  have e2 : ∀ k : Fin 64, ridx_main_v33 (idx_main_v37 (ix1 r)) k = ix2 k (⟨0, Nat.one_pos⟩ : Fin 1) :=
    fun k => funext fun a => match a with
    | ⟨0, _⟩ => rfl
    | ⟨1, _⟩ => rfl
  have e3 : idx_main_v34 (idx_main_v35 (idx_main_v37 (ix1 r))) = ix1 (⟨0, Nat.one_pos⟩ : Fin 1) :=
    funext fun a => match a with
    | ⟨0, _⟩ => rfl
  simp only [e1, e2, e3]

/-- The reshaped bias at its one entry. -/
theorem br2_apply (br : FVec Ideal S1 .f32) :
    br2 br (ix2 (n0 := 1) (n1 := 1) ⟨0, Nat.one_pos⟩ ⟨0, Nat.one_pos⟩) = br (ix1 (⟨0, Nat.one_pos⟩ : Fin 1)) := by
  unfold br2
  exact shapeCast_apply br shapeCasts_S1_S1x1 _ _
    (by rw [Shape.rowMajor_val_two, Shape.rowMajor_val_one]; rfl)

/-- The readout: `∑ k, hq r k · wr 0 k + br 0` on both sides. -/
theorem readout_eq (ne : FVec Ideal S100000x256 .f32) (ew : FVec Ideal S1200000 .f32) (ws : FVec Ideal S64x256 .f32)
    (bs : FVec Ideal S64 .f32) (wn : FVec Ideal S64x256 .f32) (bn : FVec Ideal S64 .f32) (wr : FVec Ideal S1x64 .f32)
    (br : FVec Ideal S1 .f32) (src dst : IVec S1200000 32) (query : IVec S8192 32) :
    Arrays.readoutArr (val_main_v31 (F := Ideal) ne ew ws bs wn bn src dst query) (wrT wr) (br2 br)
      = val_main_v37 (F := Ideal) ne ew ws bs wn bn wr br src dst query := by
  funext i
  obtain ⟨r, rfl⟩ : ∃ r : Fin 8192, i = ix1 r := ⟨i 0, eq_ix1 i⟩
  rw [val_main_v37_apply, val_main_v36_apply, val_main_v33_apply, val_main_v35_apply, val_main_v34_apply,
    show wrT wr = val_main_v32 (F := Ideal) wr from rfl]
  generalize val_main_v31 (F := Ideal) ne ew ws bs wn bn src dst query = hq
  generalize val_main_v32 (F := Ideal) wr = w
  rw [readoutArr_apply, br2_apply]
  exact (ref_readout_apply hq w br r).symm

/-- THE BRIDGE: the kernel's result is the reference's, as functions of the eleven arguments. -/
theorem result_eq (ne : FVec Ideal S100000x256 .f32) (ew : FVec Ideal S1200000 .f32) (ws : FVec Ideal S64x256 .f32)
    (bs : FVec Ideal S64 .f32) (wn : FVec Ideal S64x256 .f32) (bn : FVec Ideal S64 .f32) (wr : FVec Ideal S1x64 .f32)
    (br : FVec Ideal S1 .f32) (src dst : IVec S1200000 32) (query : IVec S8192 32) :
    Stages.result ne ew ws bs wn bn wr br src dst query
      = val_main_v37 (F := Ideal) ne ew ws bs wn bn wr br src dst query := by
  unfold Stages.result
  rw [x_eq, m_eq, agg_eq, h_eq, hq_eq, readout_eq]

end Cert.KernelIdeal.Bridge

end
-- ==== Proof.lean ====
/-
  A message-passing layer with a scalar readout, fused against its plain form.

  Both programs compute, for a node matrix `ne` (100000 by 256), edge weights `ew`, edge endpoints `src`, `dst` and
  query indices `query`:
      x = ne · wsᵀ + bs,   m = ne · wnᵀ + bn          (100000 by 64 each)
      agg = the sum over edges e with destination i of ew e · m (src e)
      h = max (x + agg) 0
      out q = ∑ k, h (query q) k · wr 0 k + br 0     (8192 entries).
  The kernel computes x and m by ONE product with the two weight matrices stacked, in a first call over blocks of 5000
  rows, and cuts the result in two; forms h in a second call over the same blocks; and the readout in a third call. The
  gathers and the scatter-add run between the calls, as the same operations the reference applies.

  On the extended reals the two agree index by index with no condition on the inputs: column j of the stacked product
  is `∑ k, ne r k · ws j k + bs j` for j below 64 and `∑ k, ne r k · wn (j - 64) k + bn (j - 64)` above — the same sum
  over the 256 embedding coordinates, term for term, as the separate products (`Bridge.x_eq`, `Bridge.m_eq`) — and
  everything after the two projections is the same function on both sides (`Bridge.result_eq`). No sum is reordered and
  no product distributed, so the inputs' finiteness is never used.

  The three frames: the two kernel programs' by their frame certificates, the reference's by its run with the result
  dropped. The idealization rewrote no operation, so there is nothing to preserve. The kernel's value is read off its
  run boundary by boundary (`Boundaries.run_last`, `Fold.run`): each call's output array is one function of the arrays
  the call reads (`ProjArray.final`, `CombineArray.final`, `ReadoutArray.final`), and each host stretch's buffers are
  the stage functions of what it reads (`Stretches`).
-/
import proofs.«137608_j51032801411428_1_alg».proof.Defs
import proofs.«137608_j51032801411428_1_alg».proof.Proof.Gen.Kernel
import proofs.«137608_j51032801411428_1_alg».proof.Proof.Gen.Kernel.Skeleton
import proofs.«137608_j51032801411428_1_alg».proof.Proof.Gen.Kernel.Launch
import proofs.«137608_j51032801411428_1_alg».proof.Proof.Gen.Kernel.Points
import proofs.«137608_j51032801411428_1_alg».proof.Proof.Gen.Kernel.Frame
import proofs.«137608_j51032801411428_1_alg».proof.Proof.Gen.KernelIdeal
import proofs.«137608_j51032801411428_1_alg».proof.Proof.Gen.KernelIdeal.Skeleton
import proofs.«137608_j51032801411428_1_alg».proof.Proof.Gen.KernelIdeal.Launch
import proofs.«137608_j51032801411428_1_alg».proof.Proof.Gen.KernelIdeal.Points
import proofs.«137608_j51032801411428_1_alg».proof.Proof.Gen.KernelIdeal.Frame
import proofs.«137608_j51032801411428_1_alg».proof.Proof.Gen.ReferenceIdeal
import proofs.«137608_j51032801411428_1_alg».proof.Proof.Gen.Pre_finite_inputs
import proofs.«137608_j51032801411428_1_alg».proof.Proof.Gen.ReferenceIdeal.Run
import proofs.«137608_j51032801411428_1_alg».proof.Proof.Gen.ReferenceIdeal.Read
import proofs.«137608_j51032801411428_1_alg».proof.Proof.Fold
import proofs.«137608_j51032801411428_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with what the result holds dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end, from memories agreeing on the arguments, with the result at `Stages.result` of the arguments: the
    kernel's by its run read boundary by boundary, the reference's because its composed term is that function. -/
theorem algebraic : Cert.algebraic_KernelIdeal_ReferenceIdeal := by
  intro m ρ m' ρ' _ hagree
  refine ⟨fun c => Cert.KernelIdeal.Stages.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.Fold.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v37_eq, a0, a1, a2, a3, a4, a5, a6, a7, a8, a9, a10]
  exact (Cert.KernelIdeal.Bridge.result_eq _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
